-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x768 : Shape := ⟨2, ![512, 768]⟩
abbrev S131072x768 : Shape := ⟨2, ![131072, 768]⟩
abbrev S512 : Shape := ⟨1, ![512]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel
  bcast_S_S131072x768 : S_.BroadcastsInDim S131072x768 (![] : Fin 0 → Fin S131072x768.rank)
  reducesTo_S131072x768_S_d0_1 : S131072x768.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x768 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S512x768 .f32) (main_arg1 : FVec F S131072x768 .f32) (main_arg2 : FVec F S512x768 .f32) (main_arg3 : FVec F S512 .f32) (main_arg4 : FVec F S512x768 .f32) (main_arg5 : FVec F S512 .f32) : IVec S_ 1 :=
  let main_v0 : FVec F S512x768 .f32 := Host.absf main_arg0
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  let main_v4 : FVec F S131072x768 .f32 := Host.absf main_arg1
  let main_cst_0 : FVec F S_ .f32 := constant S_ .f32 0x7F800000#32
  let main_v5 : FVec F S131072x768 .f32 := broadcastInDim S131072x768 ![] bcast_S_S131072x768 main_cst_0
  let main_v6 : IVec S131072x768 1 := cmpf .olt main_v4 main_v5
  let main_c_1 : IVec S_ 1 := constantI S_ 1 1#1
  let main_v7 : IVec S_ 1 := (fun x v => Host.reduce IntOp.andi x v reducesTo_S131072x768_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S512x768 : Shape := ⟨2, ![512, 768]⟩
abbrev S131072x768 : Shape := ⟨2, ![131072, 768]⟩
abbrev S512 : Shape := ⟨1, ![512]⟩
abbrev S1x512 : Shape := ⟨2, ![1, 512]⟩
abbrev S512x512 : Shape := ⟨2, ![512, 512]⟩
abbrev S512x1 : Shape := ⟨2, ![512, 1]⟩
abbrev S131072x512 : Shape := ⟨2, ![131072, 512]⟩
abbrev S1024x768 : Shape := ⟨2, ![1024, 768]⟩
abbrev S1024x512 : Shape := ⟨2, ![1024, 512]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S512x768, .f32⟩
  | .hbm, ⟨1, _⟩ => ⟨S131072x768, .f32⟩
  | .hbm, ⟨2, _⟩ => ⟨S512x768, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S512x512, .f32⟩
  | .hbm, ⟨9, _⟩ => ⟨S1x512, .f32⟩
  | .hbm, ⟨10, _⟩ => ⟨S131072x512, .f32⟩
  | .hbm, ⟨11, _⟩ => ⟨S131072x512, .f32⟩
  | .local _ .vmem, ⟨0, _⟩ => ⟨S512x768, .f32⟩
  | .local _ .vmem, ⟨1, _⟩ => ⟨S512x768, .f32⟩
  | .local _ .vmem, ⟨2, _⟩ => ⟨S1x512, .f32⟩
  | .local _ .vmem, ⟨3, _⟩ => ⟨S512x512, .f32⟩
  | .local _ .vmem, ⟨4, _⟩ => ⟨S1x512, .f32⟩
  | .local _ .vmem, ⟨5, _⟩ => ⟨S1024x768, .f32⟩
  | .local _ .vmem, ⟨6, _⟩ => ⟨S1024x768, .f32⟩
  | .local _ .vmem, ⟨7, _⟩ => ⟨S512x768, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := .none

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S512_S1x512 : S512.ShapeCasts S1x512
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  transposes_S512x1_p1_0_S1x512 : S512x1.Transposes [1, 0] S1x512
  inb_S1024x768_S1024x768_0_0 : ∀ a, (![0, 0] : Fin 2 → Nat) a + S1024x768.size a ≤ S1024x768.size a
  h_S1024x768 : 0 < S1024x768.numel
  broadcasts_S1x512_S1024x512 : S1x512.Broadcasts S1024x512
  reduces_S1024x512_S1024 : S1024x512.Reduces [1] S1024
  shapeCasts_S1024_S1024x1 : S1024.ShapeCasts S1024x1
  shapeCasts_S512x512_S512x512 : S512x512.ShapeCasts S512x512
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  dot_S512x768_S512x768_S512x512_1_1_0_0_n_n_wf : DotDims.WF S512x768 S512x768 S512x512 [1] [1] [0] [0] [] []
  dot_S1024x768_S512x768_S1024x512_1_1_0_0_n_n_wf : DotDims.WF S1024x768 S512x768 S1024x512 [1] [1] [0] [0] [] []
  dot_S1024x512_S512x512_S1024x512_1_1_0_0_n_n_wf : DotDims.WF S1024x512 S512x512 S1024x512 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S131072x768.size a
  hwx1_0 : ∀ i : grid1.Coords, EltTy.bits .f32 = 32 ∨ (Rect.block (s := S131072x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S131072x512.size a
  hwx1_5 : ∀ i : grid1.Coords, EltTy.bits .f32 = 32 ∨ (Rect.block (s := S131072x512) S1024x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S131072x512.size a
  hwx1_6 : ∀ i : grid1.Coords, EltTy.bits .f32 = 32 ∨ (Rect.block (s := S131072x512) S1024x512.size (cc1_transform_6 i) (hinb1_6 i)).WholeWords (EltTy.packing .f32)

variable [Facts₀]

def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v2_0) true false (stage0_3 0) (sem0_3 0) (Memref.isWhole_whole _) (hstage0_3 0)

abbrev win0_4 : Pipeline.Window sig grid0 :=
  Pipeline.Window.whole (Memref.whole main_v2_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1024x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x768 : Shape := ⟨2, ![512, 768]⟩
abbrev S131072x768 : Shape := ⟨2, ![131072, 768]⟩
abbrev S512 : Shape := ⟨1, ![512]⟩
abbrev S768x512 : Shape := ⟨2, ![768, 512]⟩
abbrev S512x512 : Shape := ⟨2, ![512, 512]⟩
abbrev S1x512 : Shape := ⟨2, ![1, 512]⟩
abbrev S131072x512 : Shape := ⟨2, ![131072, 512]⟩
abbrev S_ : Shape := ⟨0, ![]⟩
abbrev S131072 : Shape := ⟨1, ![131072]⟩
abbrev S131072x1 : Shape := ⟨2, ![131072, 1]⟩

abbrev nBuf : Space → Nat
  | .hbm => 49
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S131072x768, .f32⟩
  | .hbm, ⟨2, _⟩ => ⟨S512x768, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S768x512, .f32⟩
  | .hbm, ⟨7, _⟩ => ⟨S512x512, .f32⟩
  | .hbm, ⟨8, _⟩ => ⟨S1x512, .f32⟩
  | .hbm, ⟨9, _⟩ => ⟨S512x512, .f32⟩
  | .hbm, ⟨10, _⟩ => ⟨S512x512, .f32⟩
  | .hbm, ⟨11, _⟩ => ⟨S768x512, .f32⟩
  | .hbm, ⟨12, _⟩ => ⟨S131072x512, .f32⟩
  | .hbm, ⟨13, _⟩ => ⟨S1x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S_, .f32⟩
  | .hbm, ⟨18, _⟩ => ⟨S131072, .f32⟩
  | .hbm, ⟨19, _⟩ => ⟨S131072x1, .f32⟩
  | .hbm, ⟨20, _⟩ => ⟨S512x512, .f32⟩
  | .hbm, ⟨21, _⟩ => ⟨S_, .f32⟩
  | .hbm, ⟨22, _⟩ => ⟨S512, .f32⟩
  | .hbm, ⟨23, _⟩ => ⟨S131072x512, .f32⟩
  | .hbm, ⟨24, _⟩ => ⟨S_, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S1x512, .f32⟩
  | .hbm, ⟨30, _⟩ => ⟨S131072x512, .f32⟩
  | .hbm, ⟨31, _⟩ => ⟨S131072x512, .f32⟩
  | .hbm, ⟨32, _⟩ => ⟨S131072x512, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S131072x1, .f32⟩
  | .hbm, ⟨39, _⟩ => ⟨S131072x512, .f32⟩
  | .hbm, ⟨40, _⟩ => ⟨S131072x512, .f32⟩
  | .hbm, ⟨41, _⟩ => ⟨S131072x512, .f32⟩
  | .hbm, ⟨42, _⟩ => ⟨S_, .f32⟩
  | .hbm, ⟨43, _⟩ => ⟨S131072, .f32⟩
  | .hbm, ⟨44, _⟩ => ⟨S131072x1, .f32⟩
  | .hbm, ⟨45, _⟩ => ⟨S131072x1, .f32⟩
  | .hbm, ⟨46, _⟩ => ⟨S131072x512, .f32⟩
  | .hbm, ⟨47, _⟩ => ⟨S131072x512, .f32⟩
  | .hbm, ⟨48, _⟩ => ⟨S131072x512, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]

class Facts₀ : Prop where
  transposes_S512x768_S768x512_1_0 : S512x768.Transposes [1, 0] S768x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S1x512_S131072x512_0_1 : S1x512.BroadcastsInDim S131072x512 (![0, 1] : Fin 2 → Fin S131072x512.rank)
  reducesTo_S131072x512_S131072_d1 : S131072x512.ReducesTo [1] S131072
  h_S_ : 0 < S_.numel
  bcast_S131072_S131072x1_0 : S131072.BroadcastsInDim S131072x1 (![0] : Fin 1 → Fin S131072x1.rank)
  reducesTo_S512x512_S512_d1 : S512x512.ReducesTo [1] S512
  bcast_S_S131072x512 : S_.BroadcastsInDim S131072x512 (![] : Fin 0 → Fin S131072x512.rank)
  bcast_S131072x1_S131072x512_0_1 : S131072x1.BroadcastsInDim S131072x512 (![0, 1] : Fin 2 → Fin S131072x512.rank)
  bcast_S_S131072 : S_.BroadcastsInDim S131072 (![] : Fin 0 → Fin S131072.rank)
  dot_S512x768_S768x512_S512x512_1_0_0_1_n_n_wf : DotDims.WF S512x768 S768x512 S512x512 [1] [0] [0] [1] [] []
  dot_S131072x768_S768x512_S131072x512_1_0_0_1_n_n_wf : DotDims.WF S131072x768 S768x512 S131072x512 [1] [0] [0] [1] [] []
  dot_S131072x512_S512x512_S131072x512_1_1_0_0_n_n_wf : DotDims.WF S131072x512 S512x512 S131072x512 [1] [1] [0] [0] [] []

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S131072x768_S768x512_S131072x512_1_0_0_1_n_n : DotDims S131072x768 S768x512 S131072x512 where
  lhsContracting := [1]
  rhsContracting := [0]
  lhsNonContracting := [0]
  rhsNonContracting := [1]
  lhsBatch := []
  rhsBatch := []
  wf := dot_S131072x768_S768x512_S131072x512_1_0_0_1_n_n_wf
def dot_S131072x512_S512x512_S131072x512_1_1_0_0_n_n : DotDims S131072x512 S512x512 S131072x512 where
  lhsContracting := [1]
  rhsContracting := [1]
  lhsNonContracting := [0]
  rhsNonContracting := [0]
  lhsBatch := []
  rhsBatch := []
  wf := dot_S131072x512_S512x512_S131072x512_1_1_0_0_n_n_wf

class Facts : Prop extends Facts₀ where

variable [Facts]
-- ==== Proof.BlockRun.lean ====
/-
  What the two result arrays hold when the program has run, in terms of what its two bodies store.

  The program is two host reshapes (each bias vector as a one-row array) and two regions. The first region has one
  grid point and five windows that are whole arrays: it reads the tag embeddings, the tag weight and the first bias
  row, and leaves in its two output arrays its body's two stored values of those whole arrays. The second region has
  128 grid points; at point `t` its first window holds rows `1024·t … 1024·t + 1023` of the word embeddings, its other
  four input windows hold whole arrays (the word weight, the second bias row, and the first region's two results), and
  its two output windows are rows `1024·t …` of the two result arrays. The blocks of an output array are disjoint and
  cover it, so entry `(r, q)` of a result array is entry `(r mod 1024, q)` of what the body stores at point
  `r / 1024`. The six argument arrays are written by nothing.
-/
import proofs.«111506_j51754355917524_1_alg».proof.Proof.Gen.KernelIdeal.Frame
import Idealize.ShloMosaic.Lib.Pipeline.Value
import Idealize.ShloMosaic.Lib.ValueIdx

set_option maxRecDepth 16384

noncomputable section

namespace Cert.KernelIdeal.BlockRun

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-- Rows 1024·t … 1024·t + 1023 of a 131072-row array, as one 1024-row block. -/
def rowsOf (A : Vec F S131072x768 .f32) (t : Fin 128) : Vec F S1024x768 .f32 :=
  fun y => A (ix2 (n0 := 131072) (n1 := 768) ⟨1024 * t.val + (y 0).val, by have := t.isLt; have := idx2_lt0 (n0 := 1024) (n1 := 768) y; omega⟩ ⟨(y 1).val, idx2_lt1 (n0 := 1024) (n1 := 768) y⟩)

/-- A bias vector as the one-row array the first region's host line makes of it. -/
def biasRow (b : Vec F S512 .f32) : Vec F S1x512 .f32 := shapeCast S1x512 b Facts₀.shapeCasts_S512_S1x512

/-- What the first region leaves in its two output arrays: its body's two stored values of the whole argument arrays. -/
def tagsMetric (c : Dev nD) : Vec F S512x512 .f32 :=
  k0_pay1 (m ((c.tc : Thread nD τ).loc main_arg0)) (m ((c.tc : Thread nD τ).loc main_arg2)) (biasRow (m ((c.tc : Thread nD τ).loc main_arg3)))
def tagsSq (c : Dev nD) : Vec F S1x512 .f32 :=
  k0_pay2 (m ((c.tc : Thread nD τ).loc main_arg0)) (m ((c.tc : Thread nD τ).loc main_arg2)) (biasRow (m ((c.tc : Thread nD τ).loc main_arg3)))

/-- The block number of a row of the result, and the row's place inside its block. -/
def blockOf (i : S131072x512.Idx) : Fin 128 := ⟨(i 0).val / 1024, by have := idx2_lt0 (n0 := 131072) (n1 := 512) i; omega⟩
def rowIn (i : S131072x512.Idx) : Fin 1024 := ⟨(i 0).val % 1024, Nat.mod_lt _ (by decide)⟩

/-- The second region's first result array, entry by entry: the body's first stored value of the entry's row block. -/
def logPred (c : Dev nD) : Vec F S131072x512 .f32 := fun i =>
  k1_pay1 (rowsOf (m ((c.tc : Thread nD τ).loc main_arg1)) (blockOf i)) (m ((c.tc : Thread nD τ).loc main_arg4))
    (biasRow (m ((c.tc : Thread nD τ).loc main_arg5))) (tagsMetric m c) (tagsSq m c)
    (ix2 (n0 := 1024) (n1 := 512) (rowIn i) ⟨(i 1).val, idx2_lt1 (n0 := 131072) (n1 := 512) i⟩)
/-- The second result array: the body's second stored value. -/
def pred (c : Dev nD) : Vec F S131072x512 .f32 := fun i =>
  k1_pay2 (rowsOf (m ((c.tc : Thread nD τ).loc main_arg1)) (blockOf i)) (m ((c.tc : Thread nD τ).loc main_arg4))
    (biasRow (m ((c.tc : Thread nD τ).loc main_arg5))) (tagsMetric m c) (tagsSq m c)
    (ix2 (n0 := 1024) (n1 := 512) (rowIn i) ⟨(i 1).val, idx2_lt1 (n0 := 131072) (n1 := 512) i⟩)

section Named

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

set_option backward.isDefEq.respectTransparency.types false in
/-- The run, with each result array named by the contents of the last segment boundary. -/
theorem run_named : θ_run defs (onTc (τ := τ) (main (F := F))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3_0 (by decide)),
       h c _ (mem_uc main_v3_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Named

section Blocks

theorem hz : (![0, 0] : Fin 2 → Nat) = fun _ => 0 := funext fun a => by fin_cases a <;> rfl

/-- A result array of the second region as one function of the five arrays its body reads: entry `i` is the body's stored
    value `P` of row block `blockOf i` of the first array and of the other four whole, at row `rowIn i` of the block. -/
def blockFn (P : Vec F S1024x768 .f32 → Vec F S512x768 .f32 → Vec F S1x512 .f32 → Vec F S512x512 .f32 → Vec F S1x512 .f32 → Vec F S1024x512 .f32)
    (a1 : Vec F S131072x768 .f32) (a4 : Vec F S512x768 .f32) (b : Vec F S1x512 .f32) (w : Vec F S512x512 .f32) (s : Vec F S1x512 .f32) :
    Vec F S131072x512 .f32 := fun i =>
  P (rowsOf a1 (blockOf i)) a4 b w s (ix2 (n0 := 1024) (n1 := 512) (rowIn i) ⟨(i 1).val, idx2_lt1 (n0 := 131072) (n1 := 512) i⟩)

/-- Entry `j` of the stored value of row block `t` is entry `(1024 t + j₀, j₁)` of the array function. -/
theorem blockFn_at (P : Vec F S1024x768 .f32 → Vec F S512x768 .f32 → Vec F S1x512 .f32 → Vec F S512x512 .f32 → Vec F S1x512 .f32 → Vec F S1024x512 .f32)
    (a1 : Vec F S131072x768 .f32) (a4 : Vec F S512x768 .f32) (b : Vec F S1x512 .f32) (w : Vec F S512x512 .f32) (s : Vec F S1x512 .f32)
    (t : Fin 128) (j : S1024x512.Idx) (i : S131072x512.Idx)
    (h0 : (i 0).val = t.val * 1024 + 1 * (j 0).val) (h1 : (i 1).val = 0 * 512 + 1 * (j 1).val) :
    P (rowsOf a1 t) a4 b w s j = blockFn P a1 a4 b w s i := by
  have hj0 : (j 0).val < 1024 := idx2_lt0 (n0 := 1024) (n1 := 512) j
  have hb : blockOf i = t := Fin.ext (by show (i 0).val / 1024 = t.val; omega)
  have hj : ix2 (n0 := 1024) (n1 := 512) (rowIn i) ⟨(i 1).val, idx2_lt1 (n0 := 131072) (n1 := 512) i⟩ = j := by
    funext a; apply Fin.ext
    match a with
    | ⟨0, _⟩ => show (i 0).val % 1024 = (j 0).val; omega
    | ⟨1, _⟩ => show (i 1).val = (j 1).val; omega
  unfold blockFn
  rw [hb, hj]

variable (V : (c : Dev nD) → (b : Ref sig .tc) → Buf (Elt F) ((c : Thread nD τ).loc b))

theorem N1 : cfg1.N = 128 := N_1

/-- A grid point of the second region as a row-block number. -/
def pt (t : Fin cfg1.N) : Fin 128 := ⟨t.val, by have := t.isLt; have hN : cfg1.N = 128 := N_1; omega⟩

/-- The printed index maps of the second region, decided over its grid: the first input window and the two output windows
    are at row block `t`, every other window at block 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The first input window's block at point `t` is rows `1024 t …` of its array. -/
theorem blk1_0 (c : Dev nD) (t : Fin cfg1.N) :
    (iblk1 V c 0 t : Vec F S1024x768 .f32) = rowsOf (V c main_arg1) (pt t) := by
  obtain ⟨e0, e1, -⟩ := idx1 t
  funext y
  unfold iblk1
  rw [View.read_apply]
  show V c main_arg1 _ = V c main_arg1 _
  refine congrArg (V c main_arg1) ?_
  funext a; apply Fin.ext
  match a with
  | ⟨0, _⟩ => show win1_0.index t (0 : Fin 2) * 1024 + 1 * (y 0).val = 1024 * t.val + (y 0).val; rw [e0]; omega
  | ⟨1, _⟩ => show win1_0.index t (1 : Fin 2) * 768 + 1 * (y 1).val = (y 1).val; rw [e1]; omega

end Blocks

section Blocks2
variable (V : (c : Dev nD) → (b : Ref sig .tc) → Buf (Elt F) ((c : Thread nD τ).loc b))

/-- The other four input windows' blocks are their whole arrays. -/
theorem blk1_1 (c : Dev nD) (t : Fin cfg1.N) : (iblk1 V c 1 t : Vec F S512x768 .f32) = V c main_arg4 := by
  obtain ⟨-, -, e0, e1, -⟩ := idx1 t
  funext y
  unfold iblk1
  rw [View.read_apply]
  show V c main_arg4 _ = V c main_arg4 _
  refine congrArg (V c main_arg4) ?_
  funext a; apply Fin.ext
  match a with
  | ⟨0, _⟩ => show win1_1.index t (0 : Fin 2) * 512 + 1 * (y 0).val = (y 0).val; rw [e0]; omega
  | ⟨1, _⟩ => show win1_1.index t (1 : Fin 2) * 768 + 1 * (y 1).val = (y 1).val; rw [e1]; omega
theorem blk1_2 (c : Dev nD) (t : Fin cfg1.N) : (iblk1 V c 2 t : Vec F S1x512 .f32) = V c main_v1 := by
  obtain ⟨-, -, -, -, e0, e1, -⟩ := idx1 t
  funext y
  unfold iblk1
  rw [View.read_apply]
  show V c main_v1 _ = V c main_v1 _
  refine congrArg (V c main_v1) ?_
  funext a; apply Fin.ext
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega
theorem blk1_3 (c : Dev nD) (t : Fin cfg1.N) : (iblk1 V c 3 t : Vec F S512x512 .f32) = V c main_v2_0 := by
  obtain ⟨-, -, -, -, -, -, e0, e1, -⟩ := idx1 t
  funext y
  unfold iblk1
  rw [View.read_apply]
  show V c main_v2_0 _ = V c main_v2_0 _
  refine congrArg (V c main_v2_0) ?_
  funext a; apply Fin.ext
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega
theorem blk1_4 (c : Dev nD) (t : Fin cfg1.N) : (iblk1 V c 4 t : Vec F S1x512 .f32) = V c main_v2_1 := by
  obtain ⟨-, -, -, -, -, -, -, -, e0, e1, -⟩ := idx1 t
  funext y
  unfold iblk1
  rw [View.read_apply]
  show V c main_v2_1 _ = V c main_v2_1 _
  refine congrArg (V c main_v2_1) ?_
  funext a; apply Fin.ext
  match a with
  | ⟨0, _⟩ => show win1_4.index t (0 : Fin 2) * 1 + 1 * (y 0).val = (y 0).val; rw [e0]; omega
  | ⟨1, _⟩ => show win1_4.index t (1 : Fin 2) * 512 + 1 * (y 1).val = (y 1).val; rw [e1]; omega

/-- What point `t` writes back to the first result array is its block of the array function of the region-entry arrays. -/
theorem flushed1_5_eq (c : Dev nD) (t : Fin cfg1.N) :
    (dat1 V c).flushed 5 t = ((cfg1.win 5).blk t).view.read (Elt F)
      (blockFn k1_pay1 (V c main_arg1) (V c main_arg4) (V c main_v1) (V c main_v2_0) (V c main_v2_1)) := by
  show (cfg1.win 5).cut (grid1.coords t) ((dat1 V c).after 5 t) = _
  rw [after1_5]
  unfold out1_5
  rw [View.canon_unit_zero hz]
  simp only [View.ld_unit_zero (S := S1024x768) hz, View.ld_unit_zero (S := S512x768) hz, View.ld_unit_zero (S := S1x512) hz, View.ld_unit_zero (S := S512x512) hz]
  rw [blk1_0 V c t, blk1_1 V c t, blk1_2 V c t, blk1_3 V c t, blk1_4 V c t]
  obtain ⟨-, -, -, -, -, -, -, -, -, -, e0, e1, -⟩ := idx1 t
  funext j
  refine blockFn_at k1_pay1 (V c main_arg1) (V c main_arg4) (V c main_v1) (V c main_v2_0) (V c main_v2_1) (pt t) j _ ?_ ?_
  · show win1_5.index t (0 : Fin 2) * 1024 + 1 * (j 0).val = t.val * 1024 + 1 * (j 0).val; rw [e0]
  · show win1_5.index t (1 : Fin 2) * 512 + 1 * (j 1).val = 0 * 512 + 1 * (j 1).val; rw [e1]

end Blocks2

section Blocks3
variable (V : (c : Dev nD) → (b : Ref sig .tc) → Buf (Elt F) ((c : Thread nD τ).loc b))

/-- The same for the second result array. -/
theorem flushed1_6_eq (c : Dev nD) (t : Fin cfg1.N) :
    (dat1 V c).flushed 6 t = ((cfg1.win 6).blk t).view.read (Elt F)
      (blockFn k1_pay2 (V c main_arg1) (V c main_arg4) (V c main_v1) (V c main_v2_0) (V c main_v2_1)) := by
  show (cfg1.win 6).cut (grid1.coords t) ((dat1 V c).after 6 t) = _
  rw [after1_6]
  unfold out1_6
  rw [View.canon_unit_zero hz]
  simp only [View.ld_unit_zero (S := S1024x768) hz, View.ld_unit_zero (S := S512x768) hz, View.ld_unit_zero (S := S1x512) hz, View.ld_unit_zero (S := S512x512) hz]
  rw [blk1_0 V c t, blk1_1 V c t, blk1_2 V c t, blk1_3 V c t, blk1_4 V c t]
  obtain ⟨-, -, -, -, -, -, -, -, -, -, -, -, e0, e1⟩ := idx1 t
  funext j
  refine blockFn_at k1_pay2 (V c main_arg1) (V c main_arg4) (V c main_v1) (V c main_v2_0) (V c main_v2_1) (pt t) j _ ?_ ?_
  · show win1_6.index t (0 : Fin 2) * 1024 + 1 * (j 0).val = t.val * 1024 + 1 * (j 0).val; rw [e0]
  · show win1_6.index t (1 : Fin 2) * 512 + 1 * (j 1).val = 0 * 512 + 1 * (j 1).val; rw [e1]

/-- An index of a result array is in point `t`'s block iff each coordinate is in the block's range on its axis. -/
theorem mem_blk1_5 (t : Fin cfg1.N) (i : S131072x512.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v3_0).slice (win1_5.rect t)).set ↔ _
  rw [View.set_slice_whole, Rect.mem_set_unit]
  exact Iff.rfl
theorem mem_blk1_6 (t : Fin cfg1.N) (i : S131072x512.Idx) :
    i ∈ ((cfg1.win 6).blk t).view.set ↔ ∀ a : Fin 2, win1_6.index t a * S1024x512.size a ≤ (i a).val ∧ (i a).val < win1_6.index t a * S1024x512.size a + S1024x512.size a := by
  show i ∈ ((View.whole main_v3_1).slice (win1_6.rect t)).set ↔ _
  rw [View.set_slice_whole, Rect.mem_set_unit]
  exact Iff.rfl

/-- The point whose block holds row `r`: `r / 1024`. -/
def ptOf (i : S131072x512.Idx) : Fin cfg1.N :=
  ⟨(i 0).val / 1024, by have := idx2_lt0 (n0 := 131072) (n1 := 512) i; have hN : cfg1.N = 128 := N_1; omega⟩

/-- Every row of a result array is in the block of the point `row / 1024`, which writes back. -/
theorem cover1_5 (i : S131072x512.Idx) : ∃ t : Fin cfg1.N, (cfg1.win 5).flush t = true ∧ i ∈ ((cfg1.win 5).blk t).view.set := by
  refine ⟨ptOf i, flush1_5 (ptOf i), ?_⟩
  rw [mem_blk1_5]
  obtain ⟨-, -, -, -, -, -, -, -, -, -, e0, e1, -⟩ := idx1 (ptOf i)
  have h0 : (i 0).val < 131072 := idx2_lt0 (n0 := 131072) (n1 := 512) i
  have h1 : (i 1).val < 512 := idx2_lt1 (n0 := 131072) (n1 := 512) i
  intro a
  match a with
  | ⟨0, _⟩ => show win1_5.index (ptOf i) (0 : Fin 2) * 1024 ≤ (i 0).val ∧ (i 0).val < win1_5.index (ptOf i) (0 : Fin 2) * 1024 + 1024
              rw [e0]; show (i 0).val / 1024 * 1024 ≤ (i 0).val ∧ (i 0).val < (i 0).val / 1024 * 1024 + 1024; omega
  | ⟨1, _⟩ => show win1_5.index (ptOf i) (1 : Fin 2) * 512 ≤ (i 1).val ∧ (i 1).val < win1_5.index (ptOf i) (1 : Fin 2) * 512 + 512
              rw [e1]; omega
theorem cover1_6 (i : S131072x512.Idx) : ∃ t : Fin cfg1.N, (cfg1.win 6).flush t = true ∧ i ∈ ((cfg1.win 6).blk t).view.set := by
  refine ⟨ptOf i, flush1_6 (ptOf i), ?_⟩
  rw [mem_blk1_6]
  obtain ⟨-, -, -, -, -, -, -, -, -, -, -, -, e0, e1⟩ := idx1 (ptOf i)
  have h0 : (i 0).val < 131072 := idx2_lt0 (n0 := 131072) (n1 := 512) i
  have h1 : (i 1).val < 512 := idx2_lt1 (n0 := 131072) (n1 := 512) i
  intro a
  match a with
  | ⟨0, _⟩ => show win1_6.index (ptOf i) (0 : Fin 2) * 1024 ≤ (i 0).val ∧ (i 0).val < win1_6.index (ptOf i) (0 : Fin 2) * 1024 + 1024
              rw [e0]; show (i 0).val / 1024 * 1024 ≤ (i 0).val ∧ (i 0).val < (i 0).val / 1024 * 1024 + 1024; omega
  | ⟨1, _⟩ => show win1_6.index (ptOf i) (1 : Fin 2) * 512 ≤ (i 1).val ∧ (i 1).val < win1_6.index (ptOf i) (1 : Fin 2) * 512 + 512
              rw [e1]; omega

/-- So each result array ends holding the array function of the arrays the region is entered with. -/
theorem final1_5 (c : Dev nD) : (dat1 V c).arrAt 5 cfg1.N
    = blockFn k1_pay1 (V c main_arg1) (V c main_arg4) (V c main_v1) (V c main_v2_0) (V c main_v2_1) :=
  (dat1 V c).arrAt_eq_of_cover 5 _ (fun t _ => flushed1_5_eq V c t) cover1_5
theorem final1_6 (c : Dev nD) : (dat1 V c).arrAt 6 cfg1.N
    = blockFn k1_pay2 (V c main_arg1) (V c main_arg4) (V c main_v1) (V c main_v2_0) (V c main_v2_1) :=
  (dat1 V c).arrAt_eq_of_cover 6 _ (fun t _ => flushed1_6_eq V c t) cover1_6

end Blocks3

section Region0
variable (V : (c : Dev nD) → (b : Ref sig .tc) → Buf (Elt F) ((c : Thread nD τ).loc b))

/-- The first region's windows are all at block 0 (its grid has one point). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Its input windows' blocks are their whole arrays. -/
theorem blk0_0 (c : Dev nD) (t : Fin cfg0.N) : (iblk0 V c 0 t : Vec F S512x768 .f32) = V c main_arg0 := by
  obtain ⟨e0, e1, -⟩ := idx0 t
  funext y
  unfold iblk0
  rw [View.read_apply]
  show V c main_arg0 _ = V c main_arg0 _
  refine congrArg (V c main_arg0) ?_
  funext a; apply Fin.ext
  match a with
  | ⟨0, _⟩ => show win0_0.index t (0 : Fin 2) * 512 + 1 * (y 0).val = (y 0).val; rw [e0]; omega
  | ⟨1, _⟩ => show win0_0.index t (1 : Fin 2) * 768 + 1 * (y 1).val = (y 1).val; rw [e1]; omega
theorem blk0_1 (c : Dev nD) (t : Fin cfg0.N) : (iblk0 V c 1 t : Vec F S512x768 .f32) = V c main_arg2 := by
  obtain ⟨-, -, e0, e1, -⟩ := idx0 t
  funext y
  unfold iblk0
  rw [View.read_apply]
  show V c main_arg2 _ = V c main_arg2 _
  refine congrArg (V c main_arg2) ?_
  funext a; apply Fin.ext
  match a with
  | ⟨0, _⟩ => show win0_1.index t (0 : Fin 2) * 512 + 1 * (y 0).val = (y 0).val; rw [e0]; omega
  | ⟨1, _⟩ => show win0_1.index t (1 : Fin 2) * 768 + 1 * (y 1).val = (y 1).val; rw [e1]; omega
theorem blk0_2 (c : Dev nD) (t : Fin cfg0.N) : (iblk0 V c 2 t : Vec F S1x512 .f32) = V c main_v0 := by
  obtain ⟨-, -, -, -, e0, e1, -⟩ := idx0 t
  funext y
  unfold iblk0
  rw [View.read_apply]
  show V c main_v0 _ = V c main_v0 _
  refine congrArg (V c main_v0) ?_
  funext a; apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- What its one point writes back to each output array is the (whole) block of the body's stored value of the entry arrays. -/
theorem flushed0_3_eq (c : Dev nD) (t : Fin cfg0.N) :
    (dat0 V c).flushed 3 t = ((cfg0.win 3).blk t).view.read (Elt F) (k0_pay1 (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S512x768) hz, View.ld_unit_zero (S := S1x512) hz]
  rw [blk0_0 V c t, blk0_1 V c t, blk0_2 V c t]
  obtain ⟨-, -, -, -, -, -, e0, e1, -⟩ := idx0 t
  funext j
  show k0_pay1 (V c main_arg0) (V c main_arg2) (V c main_v0) j = k0_pay1 (V c main_arg0) (V c main_arg2) (V c main_v0) (((cfg0.win 3).blk t).view.emb j)
  refine congrArg (k0_pay1 (V c main_arg0) (V c main_arg2) (V c main_v0)) ?_
  funext a; apply Fin.ext
  match a with
  | ⟨0, _⟩ => show (j 0).val = win0_3.index t (0 : Fin 2) * 512 + 1 * (j 0).val; rw [e0]; omega
  | ⟨1, _⟩ => show (j 1).val = win0_3.index t (1 : Fin 2) * 512 + 1 * (j 1).val; rw [e1]; omega
theorem flushed0_4_eq (c : Dev nD) (t : Fin cfg0.N) :
    (dat0 V c).flushed 4 t = ((cfg0.win 4).blk t).view.read (Elt F) (k0_pay2 (V c main_arg0) (V c main_arg2) (V c main_v0)) := by
  show (cfg0.win 4).cut (grid0.coords t) ((dat0 V c).after 4 t) = _
  rw [after0_4]
  unfold out0_4
  rw [View.canon_unit_zero hz]
  simp only [View.ld_unit_zero (S := S512x768) hz, View.ld_unit_zero (S := S1x512) hz]
  rw [blk0_0 V c t, blk0_1 V c t, blk0_2 V c t]
  obtain ⟨-, -, -, -, -, -, -, -, e0, e1⟩ := idx0 t
  funext j
  show k0_pay2 (V c main_arg0) (V c main_arg2) (V c main_v0) j = k0_pay2 (V c main_arg0) (V c main_arg2) (V c main_v0) (((cfg0.win 4).blk t).view.emb j)
  refine congrArg (k0_pay2 (V c main_arg0) (V c main_arg2) (V c main_v0)) ?_
  funext a; apply Fin.ext
  match a with
  | ⟨0, _⟩ => show (j 0).val = win0_4.index t (0 : Fin 2) * 1 + 1 * (j 0).val; rw [e0]; omega
  | ⟨1, _⟩ => show (j 1).val = win0_4.index t (1 : Fin 2) * 512 + 1 * (j 1).val; rw [e1]; omega

theorem mem_blk0_3 (t : Fin cfg0.N) (i : S512x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2_0).slice (win0_3.rect t)).set ↔ _
  rw [View.set_slice_whole, Rect.mem_set_unit]
  exact Iff.rfl
theorem mem_blk0_4 (t : Fin cfg0.N) (i : S1x512.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v2_1).slice (win0_4.rect t)).set ↔ _
  rw [View.set_slice_whole, Rect.mem_set_unit]
  exact Iff.rfl

/-- The one point's block is the whole array. -/
theorem cover0_3 (i : S512x512.Idx) : ∃ t : Fin cfg0.N, (cfg0.win 3).flush t = true ∧ i ∈ ((cfg0.win 3).blk t).view.set := by
  refine ⟨t0_0, flush0_3 t0_0, ?_⟩
  rw [mem_blk0_3]
  obtain ⟨-, -, -, -, -, -, e0, e1, -⟩ := idx0 t0_0
  have h0 : (i 0).val < 512 := idx2_lt0 (n0 := 512) (n1 := 512) i
  have h1 : (i 1).val < 512 := idx2_lt1 (n0 := 512) (n1 := 512) i
  intro a
  match a with
  | ⟨0, _⟩ => show win0_3.index t0_0 (0 : Fin 2) * 512 ≤ (i 0).val ∧ (i 0).val < win0_3.index t0_0 (0 : Fin 2) * 512 + 512
              rw [e0]; omega
  | ⟨1, _⟩ => show win0_3.index t0_0 (1 : Fin 2) * 512 ≤ (i 1).val ∧ (i 1).val < win0_3.index t0_0 (1 : Fin 2) * 512 + 512
              rw [e1]; omega
theorem cover0_4 (i : S1x512.Idx) : ∃ t : Fin cfg0.N, (cfg0.win 4).flush t = true ∧ i ∈ ((cfg0.win 4).blk t).view.set := by
  refine ⟨t0_0, flush0_4 t0_0, ?_⟩
  rw [mem_blk0_4]
  obtain ⟨-, -, -, -, -, -, -, -, e0, e1⟩ := idx0 t0_0
  have h0 : (i 0).val < 1 := idx2_lt0 (n0 := 1) (n1 := 512) i
  have h1 : (i 1).val < 512 := idx2_lt1 (n0 := 1) (n1 := 512) i
  intro a
  match a with
  | ⟨0, _⟩ => show win0_4.index t0_0 (0 : Fin 2) * 1 ≤ (i 0).val ∧ (i 0).val < win0_4.index t0_0 (0 : Fin 2) * 1 + 1
              rw [e0]; omega
  | ⟨1, _⟩ => show win0_4.index t0_0 (1 : Fin 2) * 512 ≤ (i 1).val ∧ (i 1).val < win0_4.index t0_0 (1 : Fin 2) * 512 + 512
              rw [e1]; omega

/-- So the first region's output arrays end holding the body's two stored values of the arrays it is entered with. -/
theorem final0_3 (c : Dev nD) : (dat0 V c).arrAt 3 cfg0.N = k0_pay1 (V c main_arg0) (V c main_arg2) (V c main_v0) :=
  (dat0 V c).arrAt_eq_of_cover 3 _ (fun t _ => flushed0_3_eq V c t) cover0_3
theorem final0_4 (c : Dev nD) : (dat0 V c).arrAt 4 cfg0.N = k0_pay2 (V c main_arg0) (V c main_arg2) (V c main_v0) :=
  (dat0 V c).arrAt_eq_of_cover 4 _ (fun t _ => flushed0_4_eq V c t) cover0_4

end Region0

section Entry

/-! The arrays each region is entered with, in terms of the launch memory. -/

/-- The first region's argument arrays are as launched, and its third input is the first bias as a row. -/
theorem W1_main_arg0 (c : Dev nD) : W1 m ρ c (Proc.devRef .tc main_arg0) = m ((c : Thread nD τ).loc main_arg0) :=
  calc W1 m ρ c (Proc.devRef .tc main_arg0)
    _ = W2 m ρ c (Proc.devRef .tc main_arg0) := ((W2_arr m ρ c 0).trans (((dat0 (V1 m ρ) c).arrAt_in 0 rfl _).trans (A_eq0 (V1 m ρ) c 0))).symm
    _ = W3 m ρ c (Proc.devRef .tc main_arg0) := (W3_of_ne m ρ c main_arg0 (by decide)).symm
    _ = m ((c : Thread nD τ).loc main_arg0) := W3_main_arg0 m ρ c
theorem W1_main_arg2 (c : Dev nD) : W1 m ρ c (Proc.devRef .tc main_arg2) = m ((c : Thread nD τ).loc main_arg2) :=
  calc W1 m ρ c (Proc.devRef .tc main_arg2)
    _ = W2 m ρ c (Proc.devRef .tc main_arg2) := ((W2_arr m ρ c 1).trans (((dat0 (V1 m ρ) c).arrAt_in 1 rfl _).trans (A_eq0 (V1 m ρ) c 1))).symm
    _ = W3 m ρ c (Proc.devRef .tc main_arg2) := (W3_of_ne m ρ c main_arg2 (by decide)).symm
    _ = m ((c : Thread nD τ).loc main_arg2) := W3_main_arg2 m ρ c
theorem W1_main_v0 (c : Dev nD) : W1 m ρ c (Proc.devRef .tc main_v0) = biasRow (m ((c : Thread nD τ).loc main_arg3)) := by
  show StableHlo.after hostOps0 _ (Proc.devRef .tc main_v0) = _
  after_results
  rfl

/-- The second region's: the two argument arrays as launched, the second bias as a row, and the first region's two results. -/
theorem W2_main_arg1 (c : Dev nD) : W2 m ρ c (Proc.devRef .tc main_arg1) = m ((c : Thread nD τ).loc main_arg1) :=
  calc W2 m ρ c (Proc.devRef .tc main_arg1)
    _ = W3 m ρ c (Proc.devRef .tc main_arg1) := ((W3_arr m ρ c 0).trans (((dat1 (V2 m ρ) c).arrAt_in 0 rfl _).trans (A_eq1 (V2 m ρ) c 0))).symm
    _ = m ((c : Thread nD τ).loc main_arg1) := W3_main_arg1 m ρ c
theorem W2_main_arg4 (c : Dev nD) : W2 m ρ c (Proc.devRef .tc main_arg4) = m ((c : Thread nD τ).loc main_arg4) :=
  calc W2 m ρ c (Proc.devRef .tc main_arg4)
    _ = W3 m ρ c (Proc.devRef .tc main_arg4) := ((W3_arr m ρ c 1).trans (((dat1 (V2 m ρ) c).arrAt_in 1 rfl _).trans (A_eq1 (V2 m ρ) c 1))).symm
    _ = m ((c : Thread nD τ).loc main_arg4) := W3_main_arg4 m ρ c
theorem W2_main_v1 (c : Dev nD) : W2 m ρ c (Proc.devRef .tc main_v1) = biasRow (m ((c : Thread nD τ).loc main_arg5)) := by
  rw [W2_of_ne m ρ c main_v1 (by decide)]
  show StableHlo.after hostOps0 _ (Proc.devRef .tc main_v1) = _
  after_results
  rfl
theorem W2_main_v2_0 (c : Dev nD) : W2 m ρ c (Proc.devRef .tc main_v2_0) = tagsMetric m c := by
  refine (W2_arr m ρ c 3).trans ((final0_3 (V1 m ρ) c).trans ?_)
  show k0_pay1 (W1 m ρ c (Proc.devRef .tc main_arg0)) (W1 m ρ c (Proc.devRef .tc main_arg2)) (W1 m ρ c (Proc.devRef .tc main_v0)) = _
  rw [W1_main_arg0, W1_main_arg2, W1_main_v0]
  rfl
theorem W2_main_v2_1 (c : Dev nD) : W2 m ρ c (Proc.devRef .tc main_v2_1) = tagsSq m c := by
  refine (W2_arr m ρ c 4).trans ((final0_4 (V1 m ρ) c).trans ?_)
  show k0_pay2 (W1 m ρ c (Proc.devRef .tc main_arg0)) (W1 m ρ c (Proc.devRef .tc main_arg2)) (W1 m ρ c (Proc.devRef .tc main_v0)) = _
  rw [W1_main_arg0, W1_main_arg2, W1_main_v0]
  rfl

/-- The two result arrays at the end of the run. -/
theorem W3_main_v3_0 (c : Dev nD) : W3 m ρ c (Proc.devRef .tc main_v3_0) = logPred m c := by
  refine (W3_arr m ρ c 5).trans ((final1_5 (V2 m ρ) c).trans ?_)
  show blockFn k1_pay1 (W2 m ρ c (Proc.devRef .tc main_arg1)) (W2 m ρ c (Proc.devRef .tc main_arg4)) (W2 m ρ c (Proc.devRef .tc main_v1))
    (W2 m ρ c (Proc.devRef .tc main_v2_0)) (W2 m ρ c (Proc.devRef .tc main_v2_1)) = _
  rw [W2_main_arg1, W2_main_arg4, W2_main_v1, W2_main_v2_0, W2_main_v2_1]
  rfl
theorem W3_main_v3_1 (c : Dev nD) : W3 m ρ c (Proc.devRef .tc main_v3_1) = pred m c := by
  refine (W3_arr m ρ c 6).trans ((final1_6 (V2 m ρ) c).trans ?_)
  show blockFn k1_pay2 (W2 m ρ c (Proc.devRef .tc main_arg1)) (W2 m ρ c (Proc.devRef .tc main_arg4)) (W2 m ρ c (Proc.devRef .tc main_v1))
    (W2 m ρ c (Proc.devRef .tc main_v2_0)) (W2 m ρ c (Proc.devRef .tc main_v2_1)) = _
  rw [W2_main_arg1, W2_main_arg4, W2_main_v1, W2_main_v2_0, W2_main_v2_1]
  rfl

end Entry
theorem run : θ_run defs (onTc (τ := τ) (main (F := F))) ⟨m, fun _ => 0, ρ⟩ (fun r => ∀ c : Dev nD,
      r.2.mem ((c.tc : Thread nD τ).loc main_v3_0) = logPred m c
      ∧ r.2.mem ((c.tc : Thread nD τ).loc main_v3_1) = pred m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun r h c => ⟨(h c).1.trans (W3_main_v3_0 m ρ c), (h c).2.1.trans (W3_main_v3_1 m ρ c), (h c).2.2⟩)
    (run_named m ρ)

end Cert.KernelIdeal.BlockRun

end
-- ==== Proof.LibRowLayers.lean ====
/-
  The dense layers of a two-convolution graph network, entry by entry over the extended reals.

  Every layer here maps an array of `n` rows to an array of `n` rows, and entry `(r, q)` of the result reads row `r` of
  the input only. So a layer of the whole array, restricted to a block of rows, is the same layer of that block: that is
  why a kernel that walks the rows block by block computes the whole-array layer. A bias is carried as a one-row array.
    * `affineLinear x A a B`   : `(x · A + a) · B`                              (two products, no nonlinearity between);
    * `reluLinear y b W`       : `max (y + b) 0 · W`;
    * `reluAffine y b W c`     : `max (y + b) 0 · W + c`;
    * `logSoftmaxRows z`       : `(z − max_j z) − log Σ_j exp (z − max_j z)`, the maximum and the sum along each row.
-/
import Idealize.ShloMosaic.PureOps.Ideal.Laws
import Idealize.ShloMosaic.Lib.ValueIdx

noncomputable section

open scoped BigOperators

namespace Gcn.Layers

open Idealize.ShloMosaic Idealize.ShloMosaic.ValueIdx

variable {n K H C : ℕ}

/-- `(x · A + a) · B` at entry `(r, q)`: `Σ_k (Σ_l x[r,l] · A[l,k] + a[0,k]) · B[k,q]`. -/
def affineLinear (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) :
    (⟨2, ![n, C]⟩ : Shape).Idx → EReal :=
  fun i => ∑ k : Fin H, (∑ l : Fin K, x (ix2 (i 0) l) * A (ix2 l k) + a (ix2 (0 : Fin 1) k)) * B (ix2 k (i 1))

/-- `max (y + b) 0 · W` at entry `(r, q)`: `Σ_k max (y[r,k] + b[0,k]) 0 · W[k,q]`. -/
def reluLinear (y : (⟨2, ![n, H]⟩ : Shape).Idx → EReal) (b : (⟨2, ![1, H]⟩ : Shape).Idx → EReal)
    (W : (⟨2, ![H, C]⟩ : Shape).Idx → EReal) : (⟨2, ![n, C]⟩ : Shape).Idx → EReal :=
  fun i => ∑ k : Fin H, max (y (ix2 (i 0) k) + b (ix2 (0 : Fin 1) k)) 0 * W (ix2 k (i 1))

/-- `max (y + b) 0 · W + c`. -/
def reluAffine (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) :
    (⟨2, ![n, C]⟩ : Shape).Idx → EReal :=
  fun i => reluLinear y b W i + c (ix2 (0 : Fin 1) (i 1))

/-- The largest entry of row `r`. -/
def rowMax (z : (⟨2, ![n, C]⟩ : Shape).Idx → EReal) (r : Fin n) : EReal :=
  (Finset.univ : Finset (Fin C)).sup fun j => z (ix2 r j)

/-- The logarithm of a row's softmax: each entry less the row's maximum, less the logarithm of the row's sum of the
    exponentials of those differences. -/
def logSoftmaxRows (z : (⟨2, ![n, C]⟩ : Shape).Idx → EReal) : (⟨2, ![n, C]⟩ : Shape).Idx → EReal :=
  fun i => (z i - rowMax z (i 0)) - Ideal.log (∑ j : Fin C, Ideal.exp (z (ix2 (i 0) j) - rowMax z (i 0)))

/-! ## A layer reads one row -/

theorem affineLinear_apply (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) (r : Fin n) (q : Fin C) :
    affineLinear x A a B (ix2 r q)
      = ∑ k : Fin H, (∑ l : Fin K, x (ix2 r l) * A (ix2 l k) + a (ix2 (0 : Fin 1) k)) * B (ix2 k q) := rfl

theorem reluLinear_apply (y : (⟨2, ![n, H]⟩ : Shape).Idx → EReal) (b : (⟨2, ![1, H]⟩ : Shape).Idx → EReal)
    (W : (⟨2, ![H, C]⟩ : Shape).Idx → EReal) (r : Fin n) (q : Fin C) :
    reluLinear y b W (ix2 r q) = ∑ k : Fin H, max (y (ix2 r k) + b (ix2 (0 : Fin 1) k)) 0 * W (ix2 k q) := rfl

theorem reluAffine_apply (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) (r : Fin n) (q : Fin C) :
    reluAffine y b W c (ix2 r q)
      = (∑ k : Fin H, max (y (ix2 r k) + b (ix2 (0 : Fin 1) k)) 0 * W (ix2 k q)) + c (ix2 (0 : Fin 1) q) := rfl

theorem logSoftmaxRows_apply (z : (⟨2, ![n, C]⟩ : Shape).Idx → EReal) (r : Fin n) (q : Fin C) :
    logSoftmaxRows z (ix2 r q)
      = (z (ix2 r q) - rowMax z r) - Ideal.log (∑ j : Fin C, Ideal.exp (z (ix2 r j) - rowMax z r)) := rfl

/-! ## Rows of a block are rows of the array

  If block `X` of `m` rows holds rows `o, o + 1, …` of the array `x` (`hX`), then a layer of the block at `(p, q)` is
  the layer of the array at `(o + p, q)`. -/

section Blocks

variable {m : ℕ}

theorem affineLinear_block (x : (⟨2, ![n, K]⟩ : Shape).Idx → EReal) (X : (⟨2, ![m, K]⟩ : Shape).Idx → EReal)
    (A : (⟨2, ![K, H]⟩ : Shape).Idx → EReal) (a : (⟨2, ![1, H]⟩ : Shape).Idx → EReal)
    (B : (⟨2, ![H, C]⟩ : Shape).Idx → EReal) (p : Fin m) (r : Fin n) (hX : ∀ l : Fin K, X (ix2 p l) = x (ix2 r l))
    (q : Fin C) : affineLinear X A a B (ix2 p q) = affineLinear x A a B (ix2 r q) := by
  rw [affineLinear_apply, affineLinear_apply]
  refine Finset.sum_congr rfl fun k _ => ?_
  refine congrArg (fun s => (s + a (ix2 (0 : Fin 1) k)) * B (ix2 k q)) ?_
  exact Finset.sum_congr rfl fun l _ => by rw [hX l]

theorem reluLinear_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal) (p : Fin m) (r : Fin n)
    (hY : ∀ k : Fin H, Y (ix2 p k) = y (ix2 r k)) (q : Fin C) :
    reluLinear Y b W (ix2 p q) = reluLinear y b W (ix2 r q) := by
  rw [reluLinear_apply, reluLinear_apply]
  exact Finset.sum_congr rfl fun k _ => by rw [hY k]

theorem reluAffine_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal)
    (c : (⟨2, ![1, C]⟩ : Shape).Idx → EReal) (p : Fin m) (r : Fin n)
    (hY : ∀ k : Fin H, Y (ix2 p k) = y (ix2 r k)) (q : Fin C) :
    reluAffine Y b W c (ix2 p q) = reluAffine y b W c (ix2 r q) :=
  congrArg (· + c (ix2 (0 : Fin 1) q)) (reluLinear_block y Y b W p r hY q)

theorem rowMax_block (z : (⟨2, ![n, C]⟩ : Shape).Idx → EReal) (Z : (⟨2, ![m, C]⟩ : Shape).Idx → EReal) (p : Fin m)
    (r : Fin n) (hZ : ∀ j : Fin C, Z (ix2 p j) = z (ix2 r j)) : rowMax Z p = rowMax z r := by
  unfold rowMax
  exact congrArg (fun f => (Finset.univ : Finset (Fin C)).sup f) (funext hZ)

theorem logSoftmaxRows_block (z : (⟨2, ![n, C]⟩ : Shape).Idx → EReal) (Z : (⟨2, ![m, C]⟩ : Shape).Idx → EReal)
    (p : Fin m) (r : Fin n) (hZ : ∀ j : Fin C, Z (ix2 p j) = z (ix2 r j)) (q : Fin C) :
    logSoftmaxRows Z (ix2 p q) = logSoftmaxRows z (ix2 r q) := by
  rw [logSoftmaxRows_apply, logSoftmaxRows_apply, rowMax_block z Z p r hZ, hZ q]
  refine congrArg (fun s => (z (ix2 r q) - rowMax z r) - Ideal.log s) ?_
  exact Finset.sum_congr rfl fun j _ => by rw [hZ j]

end Blocks

end Gcn.Layers

end
-- ==== Proof.ProtoSpec.lean ====
/-
  Nearest-prototype scores, entry by entry over the extended reals.

  Two families of vectors are mapped into one metric space by affine maps, `project x W b = x · Wᵀ + b` (row `r` of the
  result reads row `r` of `x` only). For a word row `w` and a tag row `t` of the projected arrays the squared distance
  is taken in its expanded form `‖w‖² − 2·(w · t) + ‖t‖²`, in that order of operations, and negated; the negated
  distances of one word to all the tags are then turned into the logarithm of a softmax along the row
  (`Gcn.Layers.logSoftmaxRows`), and into the softmax itself by one more exponential.

  Nothing here is assumed finite: every definition is a composition of sums, products, differences, a row supremum,
  an exponential and a logarithm on the extended reals, and the two programs compared against it differ from it only in
  the order their sums run and in how they lay their arrays out. The factor `2` is carried as a parameter (both
  programs write the same float word for it, and it is never evaluated).
-/
import proofs.«111506_j51754355917524_1_alg».proof.Proof.LibRowLayers

noncomputable section

open scoped BigOperators

namespace Proto

open Idealize.ShloMosaic Idealize.ShloMosaic.ValueIdx Gcn.Layers

variable {n T K M : ℕ}

/-- `x · Wᵀ + b` at entry `(r, d)`: `Σ_k x[r,k] · W[d,k] + b[0,d]`, the weight stored output-major and the bias as one row. -/
def project (x : (⟨2, ![n, K]⟩ : Shape).Idx → EReal) (W : (⟨2, ![M, K]⟩ : Shape).Idx → EReal)
    (b : (⟨2, ![1, M]⟩ : Shape).Idx → EReal) : (⟨2, ![n, M]⟩ : Shape).Idx → EReal :=
  fun i => (∑ k : Fin K, x (ix2 (i 0) k) * W (ix2 (i 1) k)) + b (ix2 (0 : Fin 1) (i 1))

theorem project_apply (x : (⟨2, ![n, K]⟩ : Shape).Idx → EReal) (W : (⟨2, ![M, K]⟩ : Shape).Idx → EReal)
    (b : (⟨2, ![1, M]⟩ : Shape).Idx → EReal) (r : Fin n) (d : Fin M) :
    project x W b (ix2 r d) = (∑ k : Fin K, x (ix2 r k) * W (ix2 d k)) + b (ix2 (0 : Fin 1) d) := rfl

/-- The squared length of row `r`. -/
def sqNorm (P : (⟨2, ![n, M]⟩ : Shape).Idx → EReal) (r : Fin n) : EReal := ∑ d : Fin M, P (ix2 r d) * P (ix2 r d)

/-- The negated squared distance of word row `r` to tag row `t`, expanded: `−((‖w‖² − two·(w · t)) + ‖t‖²)`. -/
def negDist (two : EReal) (Wm : (⟨2, ![n, M]⟩ : Shape).Idx → EReal) (Tm : (⟨2, ![T, M]⟩ : Shape).Idx → EReal) :
    (⟨2, ![n, T]⟩ : Shape).Idx → EReal :=
  fun i => -((sqNorm Wm (i 0) - two * ∑ d : Fin M, Wm (ix2 (i 0) d) * Tm (ix2 (i 1) d)) + sqNorm Tm (i 1))

theorem negDist_apply (two : EReal) (Wm : (⟨2, ![n, M]⟩ : Shape).Idx → EReal) (Tm : (⟨2, ![T, M]⟩ : Shape).Idx → EReal)
    (r : Fin n) (t : Fin T) :
    negDist two Wm Tm (ix2 r t) = -((sqNorm Wm r - two * ∑ d : Fin M, Wm (ix2 r d) * Tm (ix2 t d)) + sqNorm Tm t) := rfl

/-- The logarithm of each word's softmax over the tags. -/
def logScores (two : EReal) (x : (⟨2, ![n, K]⟩ : Shape).Idx → EReal) (W : (⟨2, ![M, K]⟩ : Shape).Idx → EReal)
    (b : (⟨2, ![1, M]⟩ : Shape).Idx → EReal) (y : (⟨2, ![T, K]⟩ : Shape).Idx → EReal)
    (U : (⟨2, ![M, K]⟩ : Shape).Idx → EReal) (a : (⟨2, ![1, M]⟩ : Shape).Idx → EReal) :
    (⟨2, ![n, T]⟩ : Shape).Idx → EReal :=
  logSoftmaxRows (negDist two (project x W b) (project y U a))

/-- Each word's softmax over the tags. -/
def scores (two : EReal) (x : (⟨2, ![n, K]⟩ : Shape).Idx → EReal) (W : (⟨2, ![M, K]⟩ : Shape).Idx → EReal)
    (b : (⟨2, ![1, M]⟩ : Shape).Idx → EReal) (y : (⟨2, ![T, K]⟩ : Shape).Idx → EReal)
    (U : (⟨2, ![M, K]⟩ : Shape).Idx → EReal) (a : (⟨2, ![1, M]⟩ : Shape).Idx → EReal) :
    (⟨2, ![n, T]⟩ : Shape).Idx → EReal :=
  fun i => Ideal.exp (logScores two x W b y U a i)

/-! ## Rows of a block are rows of the array -/

section Blocks

variable {m : ℕ}

/-- If row `p` of the block `X` is row `r` of the array `x`, the projected rows agree. -/
theorem project_block (x : (⟨2, ![n, K]⟩ : Shape).Idx → EReal) (X : (⟨2, ![m, K]⟩ : Shape).Idx → EReal)
    (W : (⟨2, ![M, K]⟩ : Shape).Idx → EReal) (b : (⟨2, ![1, M]⟩ : Shape).Idx → EReal) (p : Fin m) (r : Fin n)
    (hX : ∀ k : Fin K, X (ix2 p k) = x (ix2 r k)) (d : Fin M) : project X W b (ix2 p d) = project x W b (ix2 r d) := by
  rw [project_apply, project_apply]
  exact congrArg (· + b (ix2 (0 : Fin 1) d)) (Finset.sum_congr rfl fun k _ => by rw [hX k])

/-- If row `p` of the block `Y` is row `r` of `y`, the negated distances to every tag agree. -/
theorem negDist_block (two : EReal) (y : (⟨2, ![n, M]⟩ : Shape).Idx → EReal) (Y : (⟨2, ![m, M]⟩ : Shape).Idx → EReal)
    (Tm : (⟨2, ![T, M]⟩ : Shape).Idx → EReal) (p : Fin m) (r : Fin n) (hY : ∀ d : Fin M, Y (ix2 p d) = y (ix2 r d))
    (t : Fin T) : negDist two Y Tm (ix2 p t) = negDist two y Tm (ix2 r t) := by
  rw [negDist_apply, negDist_apply]
  unfold sqNorm
  have h1 : (∑ d : Fin M, Y (ix2 p d) * Y (ix2 p d)) = ∑ d : Fin M, y (ix2 r d) * y (ix2 r d) :=
    Finset.sum_congr rfl fun d _ => by rw [hY d]
  have h2 : (∑ d : Fin M, Y (ix2 p d) * Tm (ix2 t d)) = ∑ d : Fin M, y (ix2 r d) * Tm (ix2 t d) :=
    Finset.sum_congr rfl fun d _ => by rw [hY d]
  rw [h1, h2]

end Blocks

end Proto

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«111506_j51754355917524_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«111506_j51754355917524_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«111506_j51754355917524_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibRowLayerOps.lean ====
/-
  Each dense layer of the network (LibRowLayers.lean) as the two programs spell it, for any number of rows.

  A kernel body spells a layer with vector operations on a block — `tpu.matmul` into the zero accumulator, a one-row bias
  broadcast over the rows, a maximum with the splat of the float zero, lane reductions that keep their axis —, rounding to a
  narrower float format on the way into each product; the host spells it with `dot_general`, `broadcast_in_dim`, `reduce`.
  Over the extended reals a change of float format is the identity, a product into the zero accumulator is the plain sum of
  products, and both spellings of a layer are the entry-by-entry function of LibRowLayers.lean. Nothing here needs the entries to
  be finite: no term is moved across a sum.
-/
import proofs.«111506_j51754355917524_1_alg».proof.Proof.LibRowLayers
import proofs.«111506_j51754355917524_1_alg».proof.Proof.LibDotCols
import proofs.«111506_j51754355917524_1_alg».proof.Proof.LibDotColsHost
import proofs.«111506_j51754355917524_1_alg».proof.Proof.LibHostMax
import proofs.«111506_j51754355917524_1_alg».proof.Proof.LibLaneRows
import Idealize.ShloMosaic.Lib.ValueLayout
import Idealize.ShloMosaic.Lib.Pipeline.Value

noncomputable section

open scoped BigOperators

namespace Gcn.LayerOps

open Idealize.ShloMosaic Idealize.ShloMosaic.ValueIdx Gcn.Layers Cert.Lib.DotCols Cert.Lib.DotColsHost

variable {n K H C : ℕ}

/-! ## Small readings -/

/-- The float zero word denotes zero. -/
theorem ofBits_zero : FloatOps.ofBits (F := Ideal) .f32 0x00000000#32 = (0 : EReal) := Ideal.ofBits_zero_f32

/-- The word of −∞ denotes the bottom element. -/
theorem ofBits_neg_inf : FloatOps.ofBits (F := Ideal) .f32 0xFF800000#32 = (⊥ : EReal) := HostMax.ofBits_neg_inf

/-- A vector of `H` entries as a one-row array. -/
def row (a : (⟨1, ![H]⟩ : Shape).Idx → EReal) : (⟨2, ![1, H]⟩ : Shape).Idx → EReal := fun i => a (ix1 (i 1))

/-- Reshaping a vector to one row is `row`. -/
theorem shapeCast_row (a : (⟨1, ![H]⟩ : Shape).Idx → EReal) (h : (⟨1, ![H]⟩ : Shape).ShapeCasts ⟨2, ![1, H]⟩) :
    shapeCast ⟨2, ![1, H]⟩ a h = row a := by
  funext i
  obtain ⟨u, k, rfl⟩ : ∃ (u : Fin 1) (k : Fin H), i = ix2 u k := ⟨i 0, i 1, eq_ix2 i⟩
  exact shapeCast_a_1a_apply a h u k

/-- The host's bias: a vector set as one row (`dims = [1]`), the row repeated over `n` rows (`dims = [0, 1]`); at
    `(p, k)` it is the vector's entry `k`. -/
theorem bias_rows_apply (a : (⟨1, ![H]⟩ : Shape).Idx → EReal)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (k : Fin H) :
    broadcastInDim ⟨2, ![n, H]⟩ ![0, 1] h2 (broadcastInDim ⟨2, ![1, H]⟩ ![1] h1 a) (ix2 p k) = row a (ix2 (0 : Fin 1) k) := by
  refine (broadcastInDim_apply _ h2 _ (ix2 p k) (ix2 (0 : Fin 1) k) fun ax => ?_).trans ?_
  · match ax with
    | ⟨0, _⟩ => show (0 : ℕ) = if (1 : ℕ) = 1 then 0 else p.val; rw [if_pos rfl]
    | ⟨1, _⟩ =>
      show k.val = if H = 1 then 0 else k.val
      split
      · have := k.isLt; omega
      · rfl
  · refine broadcastInDim_apply _ h1 a (ix2 (0 : Fin 1) k) (ix1 k) fun ax => ?_
    match ax with
    | ⟨0, _⟩ =>
      show k.val = if H = 1 then 0 else k.val
      split
      · have := k.isLt; omega
      · rfl

/-- The host's splat of the float zero over an array. -/
theorem zeros_apply (s : Shape) (h : (⟨0, ![]⟩ : Shape).BroadcastsInDim s ![]) (i : s.Idx) :
    broadcastInDim s ![] h (constant (F := Ideal) ⟨0, ![]⟩ .f32 0x00000000#32) i = (0 : EReal) :=
  (broadcastInDim_apply _ h _ i ix0 fun ax => ax.elim0).trans ofBits_zero

/-! ## `(x · A + a) · B` -/

/-- The kernel's spelling on a block: round, product, bias row over the rows, round, product, round. -/
theorem kernel_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (hlt : FTy.bits .bf16 < FTy.bits .f32) (hb : (⟨2, ![1, H]⟩ : Shape).Broadcasts ⟨2, ![n, H]⟩)
    (x : FVec Ideal ⟨2, ![n, K]⟩ .f32) (A : FVec Ideal ⟨2, ![K, H]⟩ .bf16) (a : FVec Ideal ⟨2, ![1, H]⟩ .f32)
    (B : FVec Ideal ⟨2, ![H, C]⟩ .bf16) :
    truncf .bf16 (matmul D2 none
        (truncf .bf16 (addf (matmul D1 none (truncf .bf16 x hlt) A (constant ⟨2, ![n, H]⟩ .f32 0x00000000#32))
          (broadcastTo ⟨2, ![n, H]⟩ a hb)) hlt)
        B (constant ⟨2, ![n, C]⟩ .f32 0x00000000#32)) hlt
      = affineLinear x A a B := by
  funext j
  obtain ⟨p, q, rfl⟩ : ∃ (p : Fin n) (q : Fin C), j = ix2 p q := ⟨j 0, j 1, eq_ix2 j⟩
  rw [affineLinear_apply]
  refine (matmul_cols_apply D2 hD2 none _ B p q).trans ?_
  refine Finset.sum_congr rfl fun k _ => congrArg (· * B (ix2 k q)) ?_
  exact congrArg₂ (· + ·) (matmul_cols_apply D1 hD1 none _ A p k) (broadcastTo_1b_ab_apply a hb p k)

/-- The host's spelling on the whole array: product, bias, product. -/
theorem host_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (x : FVec Ideal ⟨2, ![n, K]⟩ .f32) (A : FVec Ideal ⟨2, ![K, H]⟩ .f32) (a : FVec Ideal ⟨1, ![H]⟩ .f32)
    (B : FVec Ideal ⟨2, ![H, C]⟩ .f32) :
    Host.dotGeneral D2 none
        (addf (Host.dotGeneral D1 none x A)
          (broadcastInDim ⟨2, ![n, H]⟩ ![0, 1] h2 (broadcastInDim ⟨2, ![1, H]⟩ ![1] h1 a))) B
      = affineLinear x A (row a) B := by
  funext j
  obtain ⟨p, q, rfl⟩ : ∃ (p : Fin n) (q : Fin C), j = ix2 p q := ⟨j 0, j 1, eq_ix2 j⟩
  rw [affineLinear_apply]
  refine (dotGeneral_cols_apply D2 hD2 none .single _ B p q).trans ?_
  refine Finset.sum_congr rfl fun k _ => congrArg (· * B (ix2 k q)) ?_
  exact congrArg₂ (· + ·) (dotGeneral_cols_apply D1 hD1 none .single x A p k) (bias_rows_apply a h1 h2 p k)

/-! ## `max (y + b) 0 · W` and `max (y + b) 0 · W + c` -/

/-- The kernel's spelling on a block: bias row, maximum with the splat of the float zero, round, product, round. -/
theorem kernel_reluLinear (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (y : FVec Ideal ⟨2, ![n, H]⟩ .f32) (b : FVec Ideal ⟨2, ![1, H]⟩ .f32) (W : FVec Ideal ⟨2, ![H, C]⟩ .bf16) :
    truncf .bf16 (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) hlt
      = reluLinear y b W := by
  funext j
  obtain ⟨p, q, rfl⟩ : ∃ (p : Fin n) (q : Fin C), j = ix2 p q := ⟨j 0, j 1, eq_ix2 j⟩
  rw [reluLinear_apply]
  refine (matmul_cols_apply D hD none _ W p q).trans ?_
  refine Finset.sum_congr rfl fun k _ => congrArg (· * W (ix2 k q)) ?_
  show max (y (ix2 p k) + broadcastTo ⟨2, ![n, H]⟩ b hb (ix2 p k)) (FloatOps.ofBits (F := Ideal) .f32 0x00000000#32) = _
  rw [broadcastTo_1b_ab_apply b hb p k, ofBits_zero]

/-- The kernel's spelling with the output bias: the same, then the output's bias row over the rows. -/
theorem kernel_reluAffine (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (hc : (⟨2, ![1, C]⟩ : Shape).Broadcasts ⟨2, ![n, C]⟩)
    (y : FVec Ideal ⟨2, ![n, H]⟩ .f32) (b : FVec Ideal ⟨2, ![1, H]⟩ .f32) (W : FVec Ideal ⟨2, ![H, C]⟩ .bf16)
    (c : FVec Ideal ⟨2, ![1, C]⟩ .f32) :
    addf (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) (broadcastTo ⟨2, ![n, C]⟩ c hc)
      = reluAffine y b W c := by
  funext j
  obtain ⟨p, q, rfl⟩ : ∃ (p : Fin n) (q : Fin C), j = ix2 p q := ⟨j 0, j 1, eq_ix2 j⟩
  rw [reluAffine_apply]
  refine congrArg₂ (· + ·) ?_ (broadcastTo_1b_ab_apply c hc p q)
  exact congrFun (kernel_reluLinear D hD hlt hb y b W) (ix2 p q)

/-- The host's spelling: bias, maximum with a splat of the float zero, product. -/
theorem host_reluLinear (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (y : FVec Ideal ⟨2, ![n, H]⟩ .f32) (b : FVec Ideal ⟨1, ![H]⟩ .f32) (W : FVec Ideal ⟨2, ![H, C]⟩ .f32) :
    Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W
      = reluLinear y (row b) W := by
  funext j
  obtain ⟨p, q, rfl⟩ : ∃ (p : Fin n) (q : Fin C), j = ix2 p q := ⟨j 0, j 1, eq_ix2 j⟩
  rw [reluLinear_apply]
  refine (dotGeneral_cols_apply D hD none .single _ W p q).trans ?_
  refine Finset.sum_congr rfl fun k _ => congrArg (· * W (ix2 k q)) ?_
  show max (y (ix2 p k) + broadcastInDim ⟨2, ![n, H]⟩ ![0, 1] h2 (broadcastInDim ⟨2, ![1, H]⟩ ![1] h1 b) (ix2 p k))
      (broadcastInDim ⟨2, ![n, H]⟩ ![] h0 (constant (F := Ideal) ⟨0, ![]⟩ .f32 0x00000000#32) (ix2 p k)) = _
  rw [bias_rows_apply b h1 h2 p k, zeros_apply]

/-- The host's spelling with the output bias. -/
theorem host_reluAffine (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (g1 : (⟨1, ![C]⟩ : Shape).BroadcastsInDim ⟨2, ![1, C]⟩ ![1])
    (g2 : (⟨2, ![1, C]⟩ : Shape).BroadcastsInDim ⟨2, ![n, C]⟩ ![0, 1])
    (y : FVec Ideal ⟨2, ![n, H]⟩ .f32) (b : FVec Ideal ⟨1, ![H]⟩ .f32) (W : FVec Ideal ⟨2, ![H, C]⟩ .f32)
    (c : FVec Ideal ⟨1, ![C]⟩ .f32) :
    addf (Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W)
        (broadcastInDim ⟨2, ![n, C]⟩ ![0, 1] g2 (broadcastInDim ⟨2, ![1, C]⟩ ![1] g1 c))
      = reluAffine y (row b) W (row c) := by
  funext j
  obtain ⟨p, q, rfl⟩ : ∃ (p : Fin n) (q : Fin C), j = ix2 p q := ⟨j 0, j 1, eq_ix2 j⟩
  rw [reluAffine_apply]
  refine congrArg₂ (· + ·) ?_ (bias_rows_apply c g1 g2 p q)
  exact congrFun (host_reluLinear D hD h1 h2 h0 y b W) (ix2 p q)

end Gcn.LayerOps

end
-- ==== Proof.LibLogSoftmaxRows.lean ====
/-
  The logarithm of a row softmax as the two programs spell it, for any number of rows and columns.

  Both take each row's maximum from −∞ (the kernel by a lane reduction that keeps its axis as one column, the host by a
  `reduce` followed by a maximum with a splat of −∞, which changes nothing), subtract it, exponentiate, sum along the row
  from zero, take the logarithm and subtract it. A fold of `max` from the bottom element over a row is the row's supremum,
  in any order; a sum from zero is the row's sum. So both are `Layers.logSoftmaxRows`.
-/
import proofs.«111506_j51754355917524_1_alg».proof.Proof.LibRowLayerOps

noncomputable section

open scoped BigOperators

namespace Gcn.SoftmaxOps

open Idealize.ShloMosaic Idealize.ShloMosaic.ValueIdx Gcn.Layers Gcn.LayerOps

variable {n C : ℕ}

/-- Whatever spells them: if `M` holds each row's maximum on every column and `T` the logarithm of the row's sum of
    `exp (z − M)`, then `(z − M) − T` is the logarithm of the row softmax. -/
theorem logSoftmax_of_parts (z M T : (⟨2, ![n, C]⟩ : Shape).Idx → EReal)
    (hM : ∀ (p : Fin n) (q : Fin C), M (ix2 p q) = rowMax z p)
    (hT : ∀ (p : Fin n) (q : Fin C), T (ix2 p q) = Ideal.log (∑ j : Fin C, Ideal.exp (z (ix2 p j) - M (ix2 p j)))) :
    subf (F := Ideal) (φ := .f32) (subf (F := Ideal) (φ := .f32) z M) T = logSoftmaxRows z := by
  funext j
  obtain ⟨p, q, rfl⟩ : ∃ (p : Fin n) (q : Fin C), j = ix2 p q := ⟨j 0, j 1, eq_ix2 j⟩
  rw [logSoftmaxRows_apply]
  show (z (ix2 p q) - M (ix2 p q)) - T (ix2 p q) = _
  rw [hM p q, hT p q]
  refine congrArg (fun s => (z (ix2 p q) - rowMax z p) - Ideal.log s) (Finset.sum_congr rfl fun j _ => ?_)
  rw [hM p j]

/-! ## The kernel's spelling -/

/-- A vector of per-row values kept as one column and spread over the columns: entry `(p, q)` is row `p`'s value. -/
theorem column_spread_apply (v : (⟨1, ![n]⟩ : Shape).Idx → EReal) (hsc : (⟨1, ![n]⟩ : Shape).ShapeCasts ⟨2, ![n, 1]⟩)
    (hbc : (⟨2, ![n, 1]⟩ : Shape).Broadcasts ⟨2, ![n, C]⟩) (p : Fin n) (q : Fin C) :
    broadcastTo ⟨2, ![n, C]⟩ (shapeCast ⟨2, ![n, 1]⟩ v hsc) hbc (ix2 p q) = v (ix1 p) :=
  (LaneRows.broadcastTo_col_apply _ hbc p q).trans (HostMax.shapeCast_col_apply v hsc (ix2 p (0 : Fin 1)) p rfl)

/-- The kernel's logarithm of a row softmax on a block. -/
theorem kernel_logSoftmaxRows (hr : (⟨2, ![n, C]⟩ : Shape).Reduces [1] ⟨1, ![n]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, C]⟩)
    (z : FVec Ideal ⟨2, ![n, C]⟩ .f32) :
    subf (subf z (broadcastTo ⟨2, ![n, C]⟩
        (shapeCast ⟨2, ![n, 1]⟩ (multiReduction .maximumf [1] ⟨1, ![n]⟩ z 0xFF800000#32 hr hφ hmax) hsc) hbc))
      (broadcastTo ⟨2, ![n, C]⟩ (log (shapeCast ⟨2, ![n, 1]⟩ (multiReduction .add [1] ⟨1, ![n]⟩
        (exp (subf z (broadcastTo ⟨2, ![n, C]⟩
          (shapeCast ⟨2, ![n, 1]⟩ (multiReduction .maximumf [1] ⟨1, ![n]⟩ z 0xFF800000#32 hr hφ hmax) hsc) hbc)))
        0x00000000#32 hr hφ hadd) hsc)) hbc)
      = logSoftmaxRows z := by
  refine logSoftmax_of_parts z _ _ (fun p q => ?_) (fun p q => ?_)
  · exact (column_spread_apply _ hsc hbc p q).trans (HostMax.multiReduction_rows z hr hφ hmax p)
  · refine (LaneRows.broadcastTo_col_apply _ hbc p q).trans ?_
    show Ideal.log (shapeCast ⟨2, ![n, 1]⟩ _ hsc (ix2 p (0 : Fin 1))) = _
    rw [HostMax.shapeCast_col_apply _ hsc (ix2 p (0 : Fin 1)) p rfl, LaneRows.multiReduction_add_rows _ _ hr hφ hadd p]
    rfl

/-! ## The host's spelling -/

/-- A vector of per-row values set as one column (`dims = [0]`) and repeated over the columns (`dims = [0, 1]`). -/
theorem column_bcast_apply (v : (⟨1, ![n]⟩ : Shape).Idx → EReal)
    (b1 : (⟨1, ![n]⟩ : Shape).BroadcastsInDim ⟨2, ![n, 1]⟩ ![0])
    (b2 : (⟨2, ![n, 1]⟩ : Shape).BroadcastsInDim ⟨2, ![n, C]⟩ ![0, 1]) (p : Fin n) (q : Fin C) :
    broadcastInDim ⟨2, ![n, C]⟩ ![0, 1] b2 (broadcastInDim ⟨2, ![n, 1]⟩ ![0] b1 v) (ix2 p q) = v (ix1 p) := by
  refine (broadcastInDim_apply _ b2 _ (ix2 p q) (ix2 p (0 : Fin 1)) fun ax => ?_).trans ?_
  · match ax with
    | ⟨0, _⟩ =>
      show p.val = if n = 1 then 0 else p.val
      split
      · have := p.isLt; omega
      · rfl
    | ⟨1, _⟩ => show (0 : ℕ) = if (1 : ℕ) = 1 then 0 else q.val; rw [if_pos rfl]
  · refine broadcastInDim_apply _ b1 v (ix2 p (0 : Fin 1)) (ix1 p) fun ax => ?_
    match ax with
    | ⟨0, _⟩ =>
      show p.val = if n = 1 then 0 else p.val
      split
      · have := p.isLt; omega
      · rfl

/-- The host's sum along each row, from zero. -/
theorem host_rowSum (x : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel) (p : Fin n) :
    Host.reduceAdd x (constant (F := Ideal) ⟨0, ![]⟩ .f32 0x00000000#32) hred hu (ix1 p) = ∑ k : Fin C, x (ix2 p k) := by
  refine (Ideal.hostReduceAdd_single hred hr x _ (ix1 p)).trans ?_
  have hf : (x ∘ hr.lift (ix1 p)) = fun k : Fin C => x (ix2 p k) :=
    funext fun k => congrArg x (HostMax.lift_rows hr p k)
  rw [show constant (F := Ideal) ⟨0, ![]⟩ .f32 0x00000000#32 (Shape.Idx.first hu) = (0 : EReal) from ofBits_zero, zero_add]
  exact congrArg (fun f => ∑ k : Fin C, f k) hf

/-- The host's maximum along each row, from −∞, then once more against a splat of −∞: the row's supremum. -/
theorem host_rowMax (z : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![]) (p : Fin n) :
    maximumf (broadcastInDim ⟨1, ![n]⟩ ![] b0 (constant (F := Ideal) ⟨0, ![]⟩ .f32 0xFF800000#32))
        (Host.reduce FloatOps.maximumf z (constant (F := Ideal) ⟨0, ![]⟩ .f32 0xFF800000#32) hred hu) (ix1 p)
      = rowMax z p := by
  show max (broadcastInDim ⟨1, ![n]⟩ ![] b0 (constant (F := Ideal) ⟨0, ![]⟩ .f32 0xFF800000#32) (ix1 p))
      (Host.reduce FloatOps.maximumf z (constant (F := Ideal) ⟨0, ![]⟩ .f32 0xFF800000#32) hred hu (ix1 p)) = _
  rw [HostMax.reduce_rows z (constant (F := Ideal) ⟨0, ![]⟩ .f32 0xFF800000#32) (fun _ => ofBits_neg_inf) hred hr hu p,
    (broadcastInDim_apply _ b0 _ (ix1 p) ix0 fun ax => ax.elim0).trans ofBits_neg_inf]
  exact max_eq_right bot_le

/-- The host's logarithm of a row softmax on the whole array. -/
theorem host_logSoftmaxRows (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, C]⟩ ![0, 1])
    (z : FVec Ideal ⟨2, ![n, C]⟩ .f32) :
    subf (subf z (broadcastInDim ⟨2, ![n, C]⟩ ![0, 1] b2 (broadcastInDim ⟨2, ![n, 1]⟩ ![0] b1
        (maximumf (broadcastInDim ⟨1, ![n]⟩ ![] b0 (constant (F := Ideal) ⟨0, ![]⟩ .f32 0xFF800000#32))
          (Host.reduce FloatOps.maximumf z (constant (F := Ideal) ⟨0, ![]⟩ .f32 0xFF800000#32) hred hu)))))
      (broadcastInDim ⟨2, ![n, C]⟩ ![0, 1] b2 (Host.log (broadcastInDim ⟨2, ![n, 1]⟩ ![0] b1
        (Host.reduceAdd (Host.exp (subf z (broadcastInDim ⟨2, ![n, C]⟩ ![0, 1] b2 (broadcastInDim ⟨2, ![n, 1]⟩ ![0] b1
          (maximumf (broadcastInDim ⟨1, ![n]⟩ ![] b0 (constant (F := Ideal) ⟨0, ![]⟩ .f32 0xFF800000#32))
            (Host.reduce FloatOps.maximumf z (constant (F := Ideal) ⟨0, ![]⟩ .f32 0xFF800000#32) hred hu))))))
          (constant (F := Ideal) ⟨0, ![]⟩ .f32 0x00000000#32) hred hu))))
      = logSoftmaxRows z := by
  refine logSoftmax_of_parts z _ _ (fun p q => ?_) (fun p q => ?_)
  · exact (column_bcast_apply _ b1 b2 p q).trans (host_rowMax z hred hr hu b0 p)
  · refine (broadcastInDim_apply _ b2 _ (ix2 p q) (ix2 p (0 : Fin 1)) fun ax => ?_).trans ?_
    · match ax with
      | ⟨0, _⟩ =>
        show p.val = if n = 1 then 0 else p.val
        split
        · have := p.isLt; omega
        · rfl
      | ⟨1, _⟩ => show (0 : ℕ) = if (1 : ℕ) = 1 then 0 else q.val; rw [if_pos rfl]
    · show Ideal.log (broadcastInDim (s := ⟨1, ![n]⟩) ⟨2, ![n, 1]⟩ ![0] b1 _ (ix2 p (0 : Fin 1))) = _
      rw [broadcastInDim_apply _ b1 _ (ix2 p (0 : Fin 1)) (ix1 p) (fun ax => by
        match ax with
        | ⟨0, _⟩ =>
          show p.val = if n = 1 then 0 else p.val
          split
          · have := p.isLt; omega
          · rfl), host_rowSum _ hred hr hu p]
      rfl

end Gcn.SoftmaxOps

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.KernelRows.lean ====
/-
  What the two kernel bodies store, against the specification.

  The first body stores the projected tag vectors and, as one row, their squared lengths. The second body, on a block
  of word rows, projects the block, forms for every (word, tag) pair `‖w‖² − 2·(w · t) + ‖t‖²` from the stored tag
  projections and squared lengths, negates it as `0 − ·`, and takes the logarithm of the row softmax, then its
  exponential. Over the extended reals a change of float format is the identity, a matrix product that contracts the
  last axis of both operands into a zero accumulator is the plain sum of products, a lane sum from zero is the row's
  sum, `0 − x = −x`, and the logarithm of the row softmax is `Gcn.Layers.logSoftmaxRows` whatever spells it. So each
  stored value is the specification's function of the body's loaded blocks.
-/
import proofs.«111506_j51754355917524_1_alg».proof.Proof.Gen.KernelIdeal.Skeleton
import proofs.«111506_j51754355917524_1_alg».proof.Proof.ProtoSpec
import proofs.«111506_j51754355917524_1_alg».proof.Proof.LibLogSoftmaxRows
import proofs.«111506_j51754355917524_1_alg».proof.Proof.LibDotRows
import Idealize.ShloMosaic.Lib.ValueLayout
import Idealize.ShloMosaic.Lib.Pipeline.Value

noncomputable section

open scoped BigOperators

namespace Proto.Body

open Idealize.ShloMosaic Idealize.ShloMosaic.ValueIdx Gcn.Layers Gcn.SoftmaxOps Proto

variable {n T K M : ℕ}

/-- A body's projection: both operands rounded, the product contracting their last axes into the zero accumulator,
    the bias row spread over the rows and added. -/
theorem projection (D : DotDims ⟨2, ![n, K]⟩ ⟨2, ![M, K]⟩ ⟨2, ![n, M]⟩) (hD : D = DotDims.transposedRhs n K M)
    (hb : FTy.bf16.bits < FTy.f32.bits)
    (hsc : (⟨2, ![1, M]⟩ : Shape).ShapeCasts ⟨2, ![1, M]⟩) (hbc : (⟨2, ![1, M]⟩ : Shape).Broadcasts ⟨2, ![n, M]⟩)
    (x : FVec Ideal ⟨2, ![n, K]⟩ .f32) (W : FVec Ideal ⟨2, ![M, K]⟩ .f32) (b : FVec Ideal ⟨2, ![1, M]⟩ .f32) :
    addf (matmul D none (truncf .bf16 x hb) (truncf .bf16 W hb) (constant ⟨2, ![n, M]⟩ .f32 0x00000000#32))
        (broadcastTo ⟨2, ![n, M]⟩ (shapeCast ⟨2, ![1, M]⟩ b hsc) hbc)
      = project x W b := by
  funext j
  obtain ⟨p, q, rfl⟩ : ∃ (p : Fin n) (q : Fin M), j = ix2 p q := ⟨j 0, j 1, eq_ix2 j⟩
  rw [project_apply]
  show FloatOps.matmul D none (truncf .bf16 x hb) (truncf .bf16 W hb) (constant ⟨2, ![n, M]⟩ .f32 0x00000000#32) (ix2 p q)
      + broadcastTo ⟨2, ![n, M]⟩ (shapeCast ⟨2, ![1, M]⟩ b hsc) hbc (ix2 p q) = _
  rw [Cert.Lib.DotRows.matmul_rows_apply D hD none _ _ p q, broadcastTo_1b_ab_apply, shapeCast_self]
  rfl

/-- A body's row of squared lengths: the lane sum of the squares kept as a column, turned into a row. -/
theorem squares_row (hr : (⟨2, ![T, M]⟩ : Shape).Reduces [1] ⟨1, ![T]⟩) (hφ : FKind.Formats .f32)
    (hadd : (0x00000000#32 : BitVec FTy.f32.bits) = FKind.add.neutral .f32 hφ)
    (hsc : (⟨1, ![T]⟩ : Shape).ShapeCasts ⟨2, ![T, 1]⟩)
    (htr : (⟨2, ![T, 1]⟩ : Shape).Transposes [1, 0] ⟨2, ![1, T]⟩)
    (P : FVec Ideal ⟨2, ![T, M]⟩ .f32) (t : Fin T) :
    transpose ⟨2, ![1, T]⟩ [1, 0] (shapeCast ⟨2, ![T, 1]⟩
        (multiReduction .add [1] ⟨1, ![T]⟩ (mulf P P) 0x00000000#32 hr hφ hadd) hsc) htr (ix2 (0 : Fin 1) t)
      = sqNorm P t := by
  rw [transpose_ix2_apply, HostMax.shapeCast_col_apply _ hsc (ix2 t (0 : Fin 1)) t rfl,
    LaneRows.multiReduction_add_rows _ _ hr hφ hadd t]
  rfl

/-- A body's negated distances: the words' squared lengths as a column spread over the tags, less twice the product
    with the stored tag projections, plus the stored row of the tags' squared lengths, all taken from zero. -/
theorem negated_distances (D : DotDims ⟨2, ![n, M]⟩ ⟨2, ![T, M]⟩ ⟨2, ![n, T]⟩) (hD : D = DotDims.transposedRhs n M T)
    (hb : FTy.bf16.bits < FTy.f32.bits)
    (hr : (⟨2, ![n, M]⟩ : Shape).Reduces [1] ⟨1, ![n]⟩) (hφ : FKind.Formats .f32)
    (hadd : (0x00000000#32 : BitVec FTy.f32.bits) = FKind.add.neutral .f32 hφ)
    (hsc : (⟨1, ![n]⟩ : Shape).ShapeCasts ⟨2, ![n, 1]⟩) (hcol : (⟨2, ![n, 1]⟩ : Shape).Broadcasts ⟨2, ![n, T]⟩)
    (hsT : (⟨2, ![T, M]⟩ : Shape).ShapeCasts ⟨2, ![T, M]⟩)
    (hsr : (⟨2, ![1, T]⟩ : Shape).ShapeCasts ⟨2, ![1, T]⟩) (hrow : (⟨2, ![1, T]⟩ : Shape).Broadcasts ⟨2, ![n, T]⟩)
    (Wm : FVec Ideal ⟨2, ![n, M]⟩ .f32) (Tm : FVec Ideal ⟨2, ![T, M]⟩ .f32) (tsq : FVec Ideal ⟨2, ![1, T]⟩ .f32)
    (htsq : ∀ t : Fin T, tsq (ix2 (0 : Fin 1) t) = sqNorm Tm t) :
    subf (broadcast ⟨2, ![n, T]⟩ (Scalar.ofBits (F := Ideal) .f32 0x00000000#32))
        (addf (subf (broadcastTo ⟨2, ![n, T]⟩ (shapeCast ⟨2, ![n, 1]⟩
              (multiReduction .add [1] ⟨1, ![n]⟩ (mulf Wm Wm) 0x00000000#32 hr hφ hadd) hsc) hcol)
            (mulf (broadcast ⟨2, ![n, T]⟩ (Scalar.ofBits (F := Ideal) .f32 0x40000000#32))
              (matmul D none (truncf .bf16 Wm hb) (truncf .bf16 (shapeCast ⟨2, ![T, M]⟩ Tm hsT) hb)
                (constant ⟨2, ![n, T]⟩ .f32 0x00000000#32))))
          (broadcastTo ⟨2, ![n, T]⟩ (shapeCast ⟨2, ![1, T]⟩ tsq hsr) hrow))
      = negDist (Ideal.ofBits .f32 0x40000000#32) Wm Tm := by
  funext j
  obtain ⟨p, q, rfl⟩ : ∃ (p : Fin n) (q : Fin T), j = ix2 p q := ⟨j 0, j 1, eq_ix2 j⟩
  rw [negDist_apply]
  show Ideal.ofBits .f32 0x00000000#32
      - ((broadcastTo ⟨2, ![n, T]⟩ (shapeCast ⟨2, ![n, 1]⟩
              (multiReduction .add [1] ⟨1, ![n]⟩ (mulf Wm Wm) 0x00000000#32 hr hφ hadd) hsc) hcol (ix2 p q)
            - Ideal.ofBits .f32 0x40000000#32
              * FloatOps.matmul D none (truncf .bf16 Wm hb) (truncf .bf16 (shapeCast ⟨2, ![T, M]⟩ Tm hsT) hb)
                  (constant ⟨2, ![n, T]⟩ .f32 0x00000000#32) (ix2 p q))
          + broadcastTo ⟨2, ![n, T]⟩ (shapeCast ⟨2, ![1, T]⟩ tsq hsr) hrow (ix2 p q)) = _
  rw [column_spread_apply _ hsc hcol p q, LaneRows.multiReduction_add_rows _ _ hr hφ hadd p,
    Cert.Lib.DotRows.matmul_rows_apply D hD none _ _ p q, broadcastTo_1b_ab_apply, shapeCast_self, shapeCast_self,
    htsq q, Ideal.ofBits_zero_f32, zero_sub]
  rfl

end Proto.Body

/-! ## The two bodies of this kernel -/

namespace Cert.KernelIdeal.Stored

open Idealize.ShloMosaic Idealize.ShloMosaic.ValueIdx Gcn.Layers Gcn.SoftmaxOps Proto Cert.KernelIdeal Cert.KernelIdeal.Gen

/-- The factor of the cross term, as both programs write it. -/
abbrev two : EReal := Ideal.ofBits .f32 0x40000000#32

/-- The first body's first stored value: the projected tag vectors. -/
theorem tags_metric (v0 v1 : Vec Ideal S512x768 .f32) (v5 : Vec Ideal S1x512 .f32) :
    k0_pay1 (F := Ideal) v0 v1 v5 = project v0 v1 v5 := by
  unfold k0_pay1
  exact Proto.Body.projection _ rfl _ _ _ v0 v1 v5

/-- The first body's second stored value, at tag `t`: the squared length of the tag's projection. -/
theorem tags_sq (v0 v1 : Vec Ideal S512x768 .f32) (v5 : Vec Ideal S1x512 .f32) (t : Fin 512) :
    k0_pay2 (F := Ideal) v0 v1 v5 (ix2 (0 : Fin 1) t) = sqNorm (project v0 v1 v5) t := by
  unfold k0_pay2
  rw [tags_metric]
  exact Proto.Body.squares_row _ _ rfl _ _ (project v0 v1 v5) t

/-- The second body's first stored value on a block of word rows, given the stored tag projections `v12` and a row
    `v21` holding their squared lengths: the logarithm of the row softmax of the negated distances. -/
theorem log_scores (v0 : Vec Ideal S1024x768 .f32) (v1 : Vec Ideal S512x768 .f32) (v5 : Vec Ideal S1x512 .f32)
    (v12 : Vec Ideal S512x512 .f32) (v21 : Vec Ideal S1x512 .f32)
    (h21 : ∀ t : Fin 512, v21 (ix2 (0 : Fin 1) t) = sqNorm v12 t) :
    k1_pay1 (F := Ideal) v0 v1 v5 v12 v21 = logSoftmaxRows (negDist two (project v0 v1 v5) v12) := by
  unfold k1_pay1
  refine (kernel_logSoftmaxRows _ _ rfl rfl _ _ _).trans (congrArg logSoftmaxRows ?_)
  refine Eq.trans ?_ (congrArg (fun W => negDist two W v12)
    (Proto.Body.projection dot_S1024x768_S512x768_S1024x512_1_1_0_0_n_n rfl bitsLt_bf16_f32 shapeCasts_S1x512_S1x512
      broadcasts_S1x512_S1024x512 v0 v1 v5))
  exact Proto.Body.negated_distances _ rfl _ _ _ rfl _ _ _ _ _ _ v12 v21 h21

/-- The second stored value is the exponential of the first. -/
theorem scores_eq (v0 : Vec Ideal S1024x768 .f32) (v1 : Vec Ideal S512x768 .f32) (v5 : Vec Ideal S1x512 .f32)
    (v12 : Vec Ideal S512x512 .f32) (v21 : Vec Ideal S1x512 .f32) (i : S1024x512.Idx) :
    k1_pay2 (F := Ideal) v0 v1 v5 v12 v21 i = Ideal.exp (k1_pay1 (F := Ideal) v0 v1 v5 v12 v21 i) := rfl

end Cert.KernelIdeal.Stored

end
-- ==== Proof.KernelValue.lean ====
/-
  The kernel's two result arrays are the specification's functions of its argument arrays.

  Entry `(r, q)` of a result array is what the second body stores at grid point `r / 1024`, read at `(r mod 1024, q)`.
  What it stores is the logarithm of the row softmax of the negated distances of the block's projected words to the
  projected tags (and its exponential) — given that the row it loads last holds the squared lengths of the tag
  projections, which is what the first body stored there. Every one of these layers maps row `p` of a block to row `p`
  of its result, and row `r mod 1024` of block `r / 1024` of the word embeddings is row `r` of the array; so the entry
  is the whole-array layer at `(r, q)`. A bias vector cast to one row is the vector read along the row.
-/
import proofs.«111506_j51754355917524_1_alg».proof.Proof.BlockRun
import proofs.«111506_j51754355917524_1_alg».proof.Proof.KernelRows

noncomputable section

open scoped BigOperators

namespace Cert.KernelIdeal.Value

open Idealize.ShloMosaic Idealize.ShloMosaic.TcCoe Idealize.SL.Sem Idealize.ShloMosaic.ValueIdx
open Gcn.Layers Gcn.LayerOps Proto Cert.KernelIdeal Cert.KernelIdeal.Gen Cert.KernelIdeal.BlockRun Cert.KernelIdeal.Stored

/-- A bias vector cast to one row reads the vector along the row. -/
theorem biasRow_eq (b : Vec Ideal S512 .f32) : biasRow (F := Ideal) b = row b := shapeCast_row b _

/-- Row `r mod 1024` of row block `r / 1024` is row `r`. -/
theorem rowsOf_apply (A : Vec Ideal S131072x768 .f32) (i : S131072x512.Idx) (k : Fin 768) :
    rowsOf (F := Ideal) A (blockOf i) (ix2 (rowIn i) k) = A (ix2 (n0 := 131072) (n1 := 768) (i 0) k) := by
  unfold rowsOf
  refine congrArg A (congrArg₂ (ix2 (n0 := 131072) (n1 := 768)) (Fin.ext ?_) (Fin.ext rfl))
  show 1024 * ((i 0).val / 1024) + (i 0).val % 1024 = (i 0).val
  exact Nat.div_add_mod _ _

/-- An index of a result array, from its two coordinates. -/
theorem entry_eq (i : S131072x512.Idx) :
    i = ix2 (n0 := 131072) (n1 := 512) (i 0) ⟨(i 1).val, idx2_lt1 (n0 := 131072) (n1 := 512) i⟩ := by
  funext a
  match a with
  | ⟨0, _⟩ => rfl
  | ⟨1, _⟩ => rfl

/-- What the second body stores first, read at a row of its block, is the whole-array layer at that row of the array —
    for any stored tag projections `TM` and any row `TSQ` holding their squared lengths. -/
theorem block_entry (x1 : Vec Ideal S131072x768 .f32) (W4 : Vec Ideal S512x768 .f32) (b5 : Vec Ideal S1x512 .f32)
    (TM : Vec Ideal S512x512 .f32) (TSQ : Vec Ideal S1x512 .f32)
    (hTSQ : ∀ t : Fin 512, TSQ (ix2 (0 : Fin 1) t) = sqNorm TM t) (i : S131072x512.Idx) :
    k1_pay1 (F := Ideal) (rowsOf x1 (blockOf i)) W4 b5 TM TSQ
        (ix2 (n0 := 1024) (n1 := 512) (rowIn i) ⟨(i 1).val, idx2_lt1 (n0 := 131072) (n1 := 512) i⟩)
      = logSoftmaxRows (negDist two (project x1 W4 b5) TM)
          (ix2 (n0 := 131072) (n1 := 512) (i 0) ⟨(i 1).val, idx2_lt1 (n0 := 131072) (n1 := 512) i⟩) := by
  rw [log_scores _ W4 b5 TM TSQ hTSQ]
  exact logSoftmaxRows_block _ _ (rowIn i) (i 0)
    (fun j => negDist_block two _ _ TM (rowIn i) (i 0)
      (fun d => project_block x1 _ W4 b5 (rowIn i) (i 0) (fun k => rowsOf_apply x1 i k) d) j) _

variable (m : (ℓ : Loc nD τ sig) → Buf (Elt Ideal) ℓ) (ρ : Dev nD → PrngReg)

/-- The first result array: the logarithm of each word's softmax over the tags. -/
theorem log_pred_eq (c : Dev nD) :
    logPred (F := Ideal) m c
      = logScores two (m ((c.tc : Thread nD τ).loc main_arg1)) (m ((c.tc : Thread nD τ).loc main_arg4)) (row (m ((c.tc : Thread nD τ).loc main_arg5)))
          (m ((c.tc : Thread nD τ).loc main_arg0)) (m ((c.tc : Thread nD τ).loc main_arg2)) (row (m ((c.tc : Thread nD τ).loc main_arg3))) := by
  funext i
  unfold logPred BlockRun.tagsMetric BlockRun.tagsSq
  rw [tags_metric]
  refine (block_entry _ _ _ _ _ (fun t => tags_sq _ _ _ t) i).trans ?_
  rw [biasRow_eq, biasRow_eq]
  exact congrArg _ (entry_eq i).symm

/-- The second result array: each word's softmax over the tags. -/
theorem pred_eq (c : Dev nD) :
    pred (F := Ideal) m c
      = scores two (m ((c.tc : Thread nD τ).loc main_arg1)) (m ((c.tc : Thread nD τ).loc main_arg4)) (row (m ((c.tc : Thread nD τ).loc main_arg5)))
          (m ((c.tc : Thread nD τ).loc main_arg0)) (m ((c.tc : Thread nD τ).loc main_arg2)) (row (m ((c.tc : Thread nD τ).loc main_arg3))) := by
  funext i
  show Ideal.exp (logPred (F := Ideal) m c i) = _
  rw [log_pred_eq]
  rfl

/-- The kernel's run: every weakly fair execution terminates with the two result arrays at the specification's
    functions of the argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v3_0)
          = logScores two (m ((c.tc : Thread nD τ).loc main_arg1)) (m ((c.tc : Thread nD τ).loc main_arg4)) (row (m ((c.tc : Thread nD τ).loc main_arg5)))
              (m ((c.tc : Thread nD τ).loc main_arg0)) (m ((c.tc : Thread nD τ).loc main_arg2)) (row (m ((c.tc : Thread nD τ).loc main_arg3)))
      ∧ r.2.mem ((c.tc : Thread nD τ).loc main_v3_1)
          = scores two (m ((c.tc : Thread nD τ).loc main_arg1)) (m ((c.tc : Thread nD τ).loc main_arg4)) (row (m ((c.tc : Thread nD τ).loc main_arg5)))
              (m ((c.tc : Thread nD τ).loc main_arg0)) (m ((c.tc : Thread nD τ).loc main_arg2)) (row (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (log_pred_eq m c), (h c).2.1.trans (pred_eq m c), (h c).2.2⟩)
    (BlockRun.run (F := Ideal) m ρ)

end Cert.KernelIdeal.Value

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.RefLine.lean ====
/-
  The reference program's run, read back in three stretches.

  The reference is a straight line of 43 host operations: ten that project the tags and the words (`x · Wᵀ + b`, the
  weight transposed first), seventeen that form the negated expanded squared distances from the two projections, and
  sixteen that take the logarithm of the row softmax and its exponential. Each stretch reads only what the one before
  it wrote, so the contents after the whole line are the third stretch's function of the second's of the first's of the
  launch contents: `rowLogSoftmax (negDistances (wordsMetric …) (tagsMetric …))`. Each stretch is read from an arbitrary
  valuation of the buffers, so the three readings compose.
-/
import proofs.«111506_j51754355917524_1_alg».proof.Proof.Gen.ReferenceIdeal
import Idealize.ShloMosaic.Lib.StableHlo.Run
import proofs.«111506_j51754355917524_1_alg».proof.Proof.LibOutlined

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Lib.Outlined

variable {F : FTy → Type} [FloatOps F]

/-! ## The line, whole and in its three stretches -/

/-- @main's 43 operations, in order (the outlined log-softmax's operations stand in its call's place). -/
abbrev ops : List (HloOp τ sig (Elt F)) :=
  [ unary main_arg2 main_v0 ((transpose S768x512 [1, 0] · transposes_S512x768_S768x512_1_0) : (⟨S512x768, .f32⟩ : BufTy).Contents (Elt F) → (⟨S768x512, .f32⟩ : BufTy).Contents (Elt F)),
    binary main_arg0 main_v0 main_v1 ((fun l r => Host.dotGeneral dot_S512x768_S768x512_S512x512_1_0_0_1_n_n none l r) : (⟨S512x768, .f32⟩ : BufTy).Contents (Elt F) → (⟨S768x512, .f32⟩ : BufTy).Contents (Elt F) → (⟨S512x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S512x512 ![0, 1] bcast_S1x512_S512x512_0_1 : (⟨S1x512, .f32⟩ : BufTy).Contents (Elt F) → (⟨S512x512, .f32⟩ : BufTy).Contents (Elt F)),
    binary main_v1 main_v3 main_v4 (addf : (⟨S512x512, .f32⟩ : BufTy).Contents (Elt F) → (⟨S512x512, .f32⟩ : BufTy).Contents (Elt F) → (⟨S512x512, .f32⟩ : BufTy).Contents (Elt F)),
    unary main_arg4 main_v5 ((transpose S768x512 [1, 0] · transposes_S512x768_S768x512_1_0) : (⟨S512x768, .f32⟩ : BufTy).Contents (Elt F) → (⟨S768x512, .f32⟩ : BufTy).Contents (Elt F)),
    binary main_arg1 main_v5 main_v6 ((fun l r => Host.dotGeneral dot_S131072x768_S768x512_S131072x512_1_0_0_1_n_n none l r) : (⟨S131072x768, .f32⟩ : BufTy).Contents (Elt F) → (⟨S768x512, .f32⟩ : BufTy).Contents (Elt F) → (⟨S131072x512, .f32⟩ : BufTy).Contents (Elt F)),
    unary main_arg5 main_v7 (broadcastInDim S1x512 ![1] bcast_S512_S1x512_1 : (⟨S512, .f32⟩ : BufTy).Contents (Elt F) → (⟨S1x512, .f32⟩ : BufTy).Contents (Elt F)),
    unary main_v7 main_v8 (broadcastInDim S131072x512 ![0, 1] bcast_S1x512_S131072x512_0_1 : (⟨S1x512, .f32⟩ : BufTy).Contents (Elt F) → (⟨S131072x512, .f32⟩ : BufTy).Contents (Elt F)),
    binary main_v6 main_v8 main_v9 (addf : (⟨S131072x512, .f32⟩ : BufTy).Contents (Elt F) → (⟨S131072x512, .f32⟩ : BufTy).Contents (Elt F) → (⟨S131072x512, .f32⟩ : BufTy).Contents (Elt F)),
    binary main_v9 main_v9 main_v10 (mulf : (⟨S131072x512, .f32⟩ : BufTy).Contents (Elt F) → (⟨S131072x512, .f32⟩ : BufTy).Contents (Elt F) → (⟨S131072x512, .f32⟩ : BufTy).Contents (Elt F)),
    nullary main_cst (constant S_ .f32 0x00000000#32),
    binary main_v10 main_cst main_v11 ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)),
    unary main_v11 main_v12 (broadcastInDim S131072x1 ![0] bcast_S131072_S131072x1_0 : (⟨S131072, .f32⟩ : BufTy).Contents (Elt F) → (⟨S131072x1, .f32⟩ : BufTy).Contents (Elt F)),
    binary main_v4 main_v4 main_v13 (mulf : (⟨S512x512, .f32⟩ : BufTy).Contents (Elt F) → (⟨S512x512, .f32⟩ : BufTy).Contents (Elt F) → (⟨S512x512, .f32⟩ : BufTy).Contents (Elt F)),
    nullary main_cst_0 (constant S_ .f32 0x00000000#32),
    binary main_v13 main_cst_0 main_v14 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    binary main_v9 main_v4 main_v15 ((fun l r => Host.dotGeneral dot_S131072x512_S512x512_S131072x512_1_1_0_0_n_n none l r) : (⟨S131072x512, .f32⟩ : BufTy).Contents (Elt F) → (⟨S512x512, .f32⟩ : BufTy).Contents (Elt F) → (⟨S131072x512, .f32⟩ : BufTy).Contents (Elt F)),
    nullary main_cst_1 (constant S_ .f32 0x40000000#32),
    unary main_cst_1 main_v16 (broadcastInDim S131072x512 ![] bcast_S_S131072x512 : (⟨S_, .f32⟩ : BufTy).Contents (Elt F) → (⟨S131072x512, .f32⟩ : BufTy).Contents (Elt F)),
    binary main_v16 main_v15 main_v17 (mulf : (⟨S131072x512, .f32⟩ : BufTy).Contents (Elt F) → (⟨S131072x512, .f32⟩ : BufTy).Contents (Elt F) → (⟨S131072x512, .f32⟩ : BufTy).Contents (Elt F)),
    unary main_v12 main_v18 (broadcastInDim S131072x512 ![0, 1] bcast_S131072x1_S131072x512_0_1 : (⟨S131072x1, .f32⟩ : BufTy).Contents (Elt F) → (⟨S131072x512, .f32⟩ : BufTy).Contents (Elt F)),
    binary main_v18 main_v17 main_v19 (subf : (⟨S131072x512, .f32⟩ : BufTy).Contents (Elt F) → (⟨S131072x512, .f32⟩ : BufTy).Contents (Elt F) → (⟨S131072x512, .f32⟩ : BufTy).Contents (Elt F)),
    unary main_v14 main_v20 (broadcastInDim S1x512 ![1] bcast_S512_S1x512_1 : (⟨S512, .f32⟩ : BufTy).Contents (Elt F) → (⟨S1x512, .f32⟩ : BufTy).Contents (Elt F)),
    unary main_v20 main_v21 (broadcastInDim S131072x512 ![0, 1] bcast_S1x512_S131072x512_0_1 : (⟨S1x512, .f32⟩ : BufTy).Contents (Elt F) → (⟨S131072x512, .f32⟩ : BufTy).Contents (Elt F)),
    binary main_v19 main_v21 main_v22 (addf : (⟨S131072x512, .f32⟩ : BufTy).Contents (Elt F) → (⟨S131072x512, .f32⟩ : BufTy).Contents (Elt F) → (⟨S131072x512, .f32⟩ : BufTy).Contents (Elt F)),
    unary main_v22 main_v23 (Host.negf : (⟨S131072x512, .f32⟩ : BufTy).Contents (Elt F) → (⟨S131072x512, .f32⟩ : BufTy).Contents (Elt F)),
    TRef.nullary (TRef.of (T := ⟨S_, .f32⟩) main_call0_cst) (constant S_ .f32 0xFF800000#32),
    TRef.binary (TRef.of (T := ⟨S131072x512, .f32⟩) main_v23) (TRef.of (T := ⟨S_, .f32⟩) main_call0_cst) (TRef.of (T := ⟨S131072, .f32⟩) main_call0_v0) (fun x v => Host.reduce FloatOps.maximumf x v reducesTo_S131072x512_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x512, .f32⟩) main_call0_v4) (broadcastInDim S131072x512 ![0, 1] bcast_S131072x1_S131072x512_0_1),
    TRef.binary (TRef.of (T := ⟨S131072x512, .f32⟩) main_v23) (TRef.of (T := ⟨S131072x512, .f32⟩) main_call0_v4) (TRef.of (T := ⟨S131072x512, .f32⟩) main_call0_v5) subf,
    TRef.unary (TRef.of (T := ⟨S131072x512, .f32⟩) main_call0_v5) (TRef.of (T := ⟨S131072x512, .f32⟩) main_call0_v6) Host.exp,
    TRef.nullary (TRef.of (T := ⟨S_, .f32⟩) main_call0_cst_1) (constant S_ .f32 0x00000000#32),
    TRef.binary (TRef.of (T := ⟨S131072x512, .f32⟩) main_call0_v6) (TRef.of (T := ⟨S_, .f32⟩) main_call0_cst_1) (TRef.of (T := ⟨S131072, .f32⟩) main_call0_v7) (fun x v => Host.reduceAdd x v reducesTo_S131072x512_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x512, .f32⟩) main_call0_v10) (broadcastInDim S131072x512 ![0, 1] bcast_S131072x1_S131072x512_0_1),
    TRef.binary (TRef.of (T := ⟨S131072x512, .f32⟩) main_call0_v5) (TRef.of (T := ⟨S131072x512, .f32⟩) main_call0_v10) (TRef.of (T := ⟨S131072x512, .f32⟩) main_v24) subf,
    unary main_v24 main_v25 (Host.exp : (⟨S131072x512, .f32⟩ : BufTy).Contents (Elt F) → (⟨S131072x512, .f32⟩ : BufTy).Contents (Elt F)) ]

/-- The projections: the tags' into `main_v4`, the words' into `main_v9`. -/
abbrev opsProject : List (HloOp τ sig (Elt F)) :=
  [ unary main_arg2 main_v0 ((transpose S768x512 [1, 0] · transposes_S512x768_S768x512_1_0) : (⟨S512x768, .f32⟩ : BufTy).Contents (Elt F) → (⟨S768x512, .f32⟩ : BufTy).Contents (Elt F)),
    binary main_arg0 main_v0 main_v1 ((fun l r => Host.dotGeneral dot_S512x768_S768x512_S512x512_1_0_0_1_n_n none l r) : (⟨S512x768, .f32⟩ : BufTy).Contents (Elt F) → (⟨S768x512, .f32⟩ : BufTy).Contents (Elt F) → (⟨S512x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S512x512 ![0, 1] bcast_S1x512_S512x512_0_1 : (⟨S1x512, .f32⟩ : BufTy).Contents (Elt F) → (⟨S512x512, .f32⟩ : BufTy).Contents (Elt F)),
    binary main_v1 main_v3 main_v4 (addf : (⟨S512x512, .f32⟩ : BufTy).Contents (Elt F) → (⟨S512x512, .f32⟩ : BufTy).Contents (Elt F) → (⟨S512x512, .f32⟩ : BufTy).Contents (Elt F)),
    unary main_arg4 main_v5 ((transpose S768x512 [1, 0] · transposes_S512x768_S768x512_1_0) : (⟨S512x768, .f32⟩ : BufTy).Contents (Elt F) → (⟨S768x512, .f32⟩ : BufTy).Contents (Elt F)),
    binary main_arg1 main_v5 main_v6 ((fun l r => Host.dotGeneral dot_S131072x768_S768x512_S131072x512_1_0_0_1_n_n none l r) : (⟨S131072x768, .f32⟩ : BufTy).Contents (Elt F) → (⟨S768x512, .f32⟩ : BufTy).Contents (Elt F) → (⟨S131072x512, .f32⟩ : BufTy).Contents (Elt F)),
    unary main_arg5 main_v7 (broadcastInDim S1x512 ![1] bcast_S512_S1x512_1 : (⟨S512, .f32⟩ : BufTy).Contents (Elt F) → (⟨S1x512, .f32⟩ : BufTy).Contents (Elt F)),
    unary main_v7 main_v8 (broadcastInDim S131072x512 ![0, 1] bcast_S1x512_S131072x512_0_1 : (⟨S1x512, .f32⟩ : BufTy).Contents (Elt F) → (⟨S131072x512, .f32⟩ : BufTy).Contents (Elt F)),
    binary main_v6 main_v8 main_v9 (addf : (⟨S131072x512, .f32⟩ : BufTy).Contents (Elt F) → (⟨S131072x512, .f32⟩ : BufTy).Contents (Elt F) → (⟨S131072x512, .f32⟩ : BufTy).Contents (Elt F)) ]

/-- The negated distances, from `main_v9` and `main_v4` into `main_v23`. -/
abbrev opsDistances : List (HloOp τ sig (Elt F)) :=
  [ binary main_v9 main_v9 main_v10 (mulf : (⟨S131072x512, .f32⟩ : BufTy).Contents (Elt F) → (⟨S131072x512, .f32⟩ : BufTy).Contents (Elt F) → (⟨S131072x512, .f32⟩ : BufTy).Contents (Elt F)),
    nullary main_cst (constant S_ .f32 0x00000000#32),
    binary main_v10 main_cst main_v11 ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)),
    unary main_v11 main_v12 (broadcastInDim S131072x1 ![0] bcast_S131072_S131072x1_0 : (⟨S131072, .f32⟩ : BufTy).Contents (Elt F) → (⟨S131072x1, .f32⟩ : BufTy).Contents (Elt F)),
    binary main_v4 main_v4 main_v13 (mulf : (⟨S512x512, .f32⟩ : BufTy).Contents (Elt F) → (⟨S512x512, .f32⟩ : BufTy).Contents (Elt F) → (⟨S512x512, .f32⟩ : BufTy).Contents (Elt F)),
    nullary main_cst_0 (constant S_ .f32 0x00000000#32),
    binary main_v13 main_cst_0 main_v14 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    binary main_v9 main_v4 main_v15 ((fun l r => Host.dotGeneral dot_S131072x512_S512x512_S131072x512_1_1_0_0_n_n none l r) : (⟨S131072x512, .f32⟩ : BufTy).Contents (Elt F) → (⟨S512x512, .f32⟩ : BufTy).Contents (Elt F) → (⟨S131072x512, .f32⟩ : BufTy).Contents (Elt F)),
    nullary main_cst_1 (constant S_ .f32 0x40000000#32),
    unary main_cst_1 main_v16 (broadcastInDim S131072x512 ![] bcast_S_S131072x512 : (⟨S_, .f32⟩ : BufTy).Contents (Elt F) → (⟨S131072x512, .f32⟩ : BufTy).Contents (Elt F)),
    binary main_v16 main_v15 main_v17 (mulf : (⟨S131072x512, .f32⟩ : BufTy).Contents (Elt F) → (⟨S131072x512, .f32⟩ : BufTy).Contents (Elt F) → (⟨S131072x512, .f32⟩ : BufTy).Contents (Elt F)),
    unary main_v12 main_v18 (broadcastInDim S131072x512 ![0, 1] bcast_S131072x1_S131072x512_0_1 : (⟨S131072x1, .f32⟩ : BufTy).Contents (Elt F) → (⟨S131072x512, .f32⟩ : BufTy).Contents (Elt F)),
    binary main_v18 main_v17 main_v19 (subf : (⟨S131072x512, .f32⟩ : BufTy).Contents (Elt F) → (⟨S131072x512, .f32⟩ : BufTy).Contents (Elt F) → (⟨S131072x512, .f32⟩ : BufTy).Contents (Elt F)),
    unary main_v14 main_v20 (broadcastInDim S1x512 ![1] bcast_S512_S1x512_1 : (⟨S512, .f32⟩ : BufTy).Contents (Elt F) → (⟨S1x512, .f32⟩ : BufTy).Contents (Elt F)),
    unary main_v20 main_v21 (broadcastInDim S131072x512 ![0, 1] bcast_S1x512_S131072x512_0_1 : (⟨S1x512, .f32⟩ : BufTy).Contents (Elt F) → (⟨S131072x512, .f32⟩ : BufTy).Contents (Elt F)),
    binary main_v19 main_v21 main_v22 (addf : (⟨S131072x512, .f32⟩ : BufTy).Contents (Elt F) → (⟨S131072x512, .f32⟩ : BufTy).Contents (Elt F) → (⟨S131072x512, .f32⟩ : BufTy).Contents (Elt F)),
    unary main_v22 main_v23 (Host.negf : (⟨S131072x512, .f32⟩ : BufTy).Contents (Elt F) → (⟨S131072x512, .f32⟩ : BufTy).Contents (Elt F)) ]

/-- The logarithm of the row softmax of `main_v23` into `main_v24`, and its exponential into `main_v25`. -/
abbrev opsSoftmax : List (HloOp τ sig (Elt F)) :=
  [ TRef.nullary (TRef.of (T := ⟨S_, .f32⟩) main_call0_cst) (constant S_ .f32 0xFF800000#32),
    TRef.binary (TRef.of (T := ⟨S131072x512, .f32⟩) main_v23) (TRef.of (T := ⟨S_, .f32⟩) main_call0_cst) (TRef.of (T := ⟨S131072, .f32⟩) main_call0_v0) (fun x v => Host.reduce FloatOps.maximumf x v reducesTo_S131072x512_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x512, .f32⟩) main_call0_v4) (broadcastInDim S131072x512 ![0, 1] bcast_S131072x1_S131072x512_0_1),
    TRef.binary (TRef.of (T := ⟨S131072x512, .f32⟩) main_v23) (TRef.of (T := ⟨S131072x512, .f32⟩) main_call0_v4) (TRef.of (T := ⟨S131072x512, .f32⟩) main_call0_v5) subf,
    TRef.unary (TRef.of (T := ⟨S131072x512, .f32⟩) main_call0_v5) (TRef.of (T := ⟨S131072x512, .f32⟩) main_call0_v6) Host.exp,
    TRef.nullary (TRef.of (T := ⟨S_, .f32⟩) main_call0_cst_1) (constant S_ .f32 0x00000000#32),
    TRef.binary (TRef.of (T := ⟨S131072x512, .f32⟩) main_call0_v6) (TRef.of (T := ⟨S_, .f32⟩) main_call0_cst_1) (TRef.of (T := ⟨S131072, .f32⟩) main_call0_v7) (fun x v => Host.reduceAdd x v reducesTo_S131072x512_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x512, .f32⟩) main_call0_v10) (broadcastInDim S131072x512 ![0, 1] bcast_S131072x1_S131072x512_0_1),
    TRef.binary (TRef.of (T := ⟨S131072x512, .f32⟩) main_call0_v5) (TRef.of (T := ⟨S131072x512, .f32⟩) main_call0_v10) (TRef.of (T := ⟨S131072x512, .f32⟩) main_v24) subf,
    unary main_v24 main_v25 (Host.exp : (⟨S131072x512, .f32⟩ : BufTy).Contents (Elt F) → (⟨S131072x512, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., binary_bufs_sub .., nullary_bufs_sub .., binary_bufs_sub .., binary_bufs_sub .., nullary_bufs_sub .., unary_bufs_sub .., binary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

set_option maxRecDepth 8192 in
/-- The line is its three stretches, one after the other. -/
theorem ops_cut : (ops : List (HloOp τ sig (Elt F))) = opsProject ++ (opsDistances ++ opsSoftmax) := rfl

/-! ## What each stretch computes -/

/-- The projected tags: `x0 · x2ᵀ + x3`. -/
def tagsMetric (x0 x2 : (⟨S512x768, .f32⟩ : BufTy).Contents (Elt F)) (x3 : (⟨S512, .f32⟩ : BufTy).Contents (Elt F)) : (⟨S512x512, .f32⟩ : BufTy).Contents (Elt F) :=
  addf (Host.dotGeneral dot_S512x768_S768x512_S512x512_1_0_0_1_n_n none x0 (transpose S768x512 [1, 0] x2 transposes_S512x768_S768x512_1_0))
    (broadcastInDim S512x512 ![0, 1] bcast_S1x512_S512x512_0_1 (broadcastInDim S1x512 ![1] bcast_S512_S1x512_1 x3))

/-- The projected words: `x1 · x4ᵀ + x5`. -/
def wordsMetric (x1 : (⟨S131072x768, .f32⟩ : BufTy).Contents (Elt F)) (x4 : (⟨S512x768, .f32⟩ : BufTy).Contents (Elt F)) (x5 : (⟨S512, .f32⟩ : BufTy).Contents (Elt F)) : (⟨S131072x512, .f32⟩ : BufTy).Contents (Elt F) :=
  addf (Host.dotGeneral dot_S131072x768_S768x512_S131072x512_1_0_0_1_n_n none x1 (transpose S768x512 [1, 0] x4 transposes_S512x768_S768x512_1_0))
    (broadcastInDim S131072x512 ![0, 1] bcast_S1x512_S131072x512_0_1 (broadcastInDim S1x512 ![1] bcast_S512_S1x512_1 x5))

/-- The negated expanded squared distances of every word to every tag. -/
def negDistances (wm : (⟨S131072x512, .f32⟩ : BufTy).Contents (Elt F)) (tm : (⟨S512x512, .f32⟩ : BufTy).Contents (Elt F)) : (⟨S131072x512, .f32⟩ : BufTy).Contents (Elt F) :=
  Host.negf (addf
    (subf
      (broadcastInDim S131072x512 ![0, 1] bcast_S131072x1_S131072x512_0_1 (broadcastInDim S131072x1 ![0] bcast_S131072_S131072x1_0
        (Host.reduceAdd (mulf wm wm) (constant S_ .f32 0x00000000#32) reducesTo_S131072x512_S131072_d1 h_S_)))
      (mulf (broadcastInDim S131072x512 ![] bcast_S_S131072x512 (constant S_ .f32 0x40000000#32))
        (Host.dotGeneral dot_S131072x512_S512x512_S131072x512_1_1_0_0_n_n none wm tm)))
    (broadcastInDim S131072x512 ![0, 1] bcast_S1x512_S131072x512_0_1 (broadcastInDim S1x512 ![1] bcast_S512_S1x512_1
      (Host.reduceAdd (mulf tm tm) (constant S_ .f32 0x00000000#32) reducesTo_S512x512_S512_d1 h_S_))))

/-- Each row's maximum, repeated over the row. -/
def rowMaxSpread (z : (⟨S131072x512, .f32⟩ : BufTy).Contents (Elt F)) : (⟨S131072x512, .f32⟩ : BufTy).Contents (Elt F) :=
  broadcastInDim S131072x512 ![0, 1] bcast_S131072x1_S131072x512_0_1 (broadcastInDim S131072x1 ![0] bcast_S131072_S131072x1_0
    (maximumf (broadcastInDim S131072 ![] bcast_S_S131072 (constant S_ .f32 0xFF800000#32))
      (Host.reduce FloatOps.maximumf z (constant S_ .f32 0xFF800000#32) reducesTo_S131072x512_S131072_d1 h_S_)))

/-- The logarithm of the row softmax, as the outlined function spells it. -/
def rowLogSoftmax (z : (⟨S131072x512, .f32⟩ : BufTy).Contents (Elt F)) : (⟨S131072x512, .f32⟩ : BufTy).Contents (Elt F) :=
  subf (subf z (rowMaxSpread z))
    (broadcastInDim S131072x512 ![0, 1] bcast_S131072x1_S131072x512_0_1 (Host.log (broadcastInDim S131072x1 ![0] bcast_S131072_S131072x1_0
      (Host.reduceAdd (Host.exp (subf z (rowMaxSpread z))) (constant S_ .f32 0x00000000#32) reducesTo_S131072x512_S131072_d1 h_S_))))

/-! ## Each stretch read from an arbitrary valuation -/

set_option maxRecDepth 8192 in
theorem project_tags (V : Valuation τ sig (Elt F)) :
    after opsProject V (Proc.devRef .tc main_v4)
      = tagsMetric (V (Proc.devRef .tc main_arg0)) (V (Proc.devRef .tc main_arg2)) (V (Proc.devRef .tc main_arg3)) := by
  after_results_simp <;> rfl

set_option maxRecDepth 8192 in
theorem project_words (V : Valuation τ sig (Elt F)) :
    after opsProject V (Proc.devRef .tc main_v9)
      = wordsMetric (V (Proc.devRef .tc main_arg1)) (V (Proc.devRef .tc main_arg4)) (V (Proc.devRef .tc main_arg5)) := by
  after_results_simp <;> rfl

set_option maxRecDepth 8192 in
theorem distances (V : Valuation τ sig (Elt F)) :
    after opsDistances V (Proc.devRef .tc main_v23)
      = negDistances (V (Proc.devRef .tc main_v9)) (V (Proc.devRef .tc main_v4)) := by
  after_results_simp <;> rfl

/-! The outlined function's operations carry each value to its buffer's own type and back. A value carried there and
    back is unchanged, whatever the buffer; at the stretch's two ends (its input `main_v23`, its results) the buffer's
    type is the value's, so carrying changes nothing there either. -/

theorem toBuf_v24 (v : (⟨S131072x512, .f32⟩ : BufTy).Contents (Elt F)) : (TRef.of (T := ⟨S131072x512, .f32⟩) main_v24).toBuf v = v := rfl
theorem ofBuf_v23 (u : main_v23.ty.Contents (Elt F)) : (TRef.of (T := ⟨S131072x512, .f32⟩) main_v23).ofBuf u = u := rfl

set_option maxRecDepth 8192 in
theorem softmax_log (V : Valuation τ sig (Elt F)) :
    after opsSoftmax V (Proc.devRef .tc main_v24) = rowLogSoftmax (V (Proc.devRef .tc main_v23)) := by
  after_results_simp
  simp only [ofBuf_toBuf, toBuf_v24, ofBuf_v23]
  rfl

set_option maxRecDepth 8192 in
theorem softmax_exp (V : Valuation τ sig (Elt F)) :
    after opsSoftmax V (Proc.devRef .tc main_v25) = Host.exp (rowLogSoftmax (V (Proc.devRef .tc main_v23))) := by
  after_results_simp
  simp only [ofBuf_toBuf, toBuf_v24, ofBuf_v23]
  rfl

/-! ## The whole line -/

/-- The first result's contents after the line, from any valuation. -/
theorem result0 (V : Valuation τ sig (Elt F)) :
    after ops V (Proc.devRef .tc main_v24)
      = rowLogSoftmax (negDistances
          (wordsMetric (V (Proc.devRef .tc main_arg1)) (V (Proc.devRef .tc main_arg4)) (V (Proc.devRef .tc main_arg5)))
          (tagsMetric (V (Proc.devRef .tc main_arg0)) (V (Proc.devRef .tc main_arg2)) (V (Proc.devRef .tc main_arg3)))) := by
  rw [ops_cut, after_append, after_append, softmax_log, distances, project_words, project_tags]

/-- The second result's contents after the line. -/
theorem result1 (V : Valuation τ sig (Elt F)) :
    after ops V (Proc.devRef .tc main_v25)
      = Host.exp (rowLogSoftmax (negDistances
          (wordsMetric (V (Proc.devRef .tc main_arg1)) (V (Proc.devRef .tc main_arg4)) (V (Proc.devRef .tc main_arg5)))
          (tagsMetric (V (Proc.devRef .tc main_arg0)) (V (Proc.devRef .tc main_arg2)) (V (Proc.devRef .tc main_arg3))))) := by
  rw [ops_cut, after_append, after_append, softmax_exp, distances, project_words, project_tags]

set_option maxRecDepth 8192 in
set_option maxHeartbeats 2000000 in
/-- On every device, for any float values, from any memory with zero counters: every weakly fair execution of @main
    terminates with the two results at the three stretches' composed functions of the arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = rowLogSoftmax (negDistances
              (wordsMetric (m ((c.tc : Thread nD τ).loc main_arg1)) (m ((c.tc : Thread nD τ).loc main_arg4)) (m ((c.tc : Thread nD τ).loc main_arg5)))
              (tagsMetric (m ((c.tc : Thread nD τ).loc main_arg0)) (m ((c.tc : Thread nD τ).loc main_arg2)) (m ((c.tc : Thread nD τ).loc main_arg3))))
      ∧ r.2.mem ((c.tc : Thread nD τ).loc main_v25)
          = Host.exp (rowLogSoftmax (negDistances
              (wordsMetric (m ((c.tc : Thread nD τ).loc main_arg1)) (m ((c.tc : Thread nD τ).loc main_arg4)) (m ((c.tc : Thread nD τ).loc main_arg5)))
              (tagsMetric (m ((c.tc : Thread nD τ).loc main_arg0)) (m ((c.tc : Thread nD τ).loc main_arg2)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v24).trans (result0 _),
      (h c main_v25).trans (result1 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Line

end
-- ==== Proof.RefRows.lean ====
/-
  What the reference's three stretches compute, against the specification.

  Over the extended reals the host's plain matrix product with a transposed weight is the sum of products along the
  shared axis, its `reduce add` from zero along a row is the row's sum, its negation is the extended reals' own, a
  vector set as one row or as one column and repeated reads back the vector's entry, and the outlined logarithm of a
  row softmax is `Gcn.Layers.logSoftmaxRows`. So the projections are `Proto.project` at the bias as a row, the negated
  distances are `Proto.negDist`, and the two results are `Proto.logScores` and `Proto.scores`.
-/
import proofs.«111506_j51754355917524_1_alg».proof.Proof.RefLine
import proofs.«111506_j51754355917524_1_alg».proof.Proof.ProtoSpec
import proofs.«111506_j51754355917524_1_alg».proof.Proof.LibLogSoftmaxRows
import proofs.«111506_j51754355917524_1_alg».proof.Proof.LibDotRows
import Idealize.ShloMosaic.Lib.ValueLayout
import Idealize.ShloMosaic.Lib.Pipeline.Value

noncomputable section

open scoped BigOperators

namespace Proto.OnHost

open Idealize.ShloMosaic Idealize.ShloMosaic.ValueIdx Gcn.Layers Gcn.LayerOps Gcn.SoftmaxOps Proto

variable {n T K M : ℕ}

/-- The host's projection: the weight transposed, the plain product, the bias set as a row and repeated over the rows. -/
theorem projection (D : DotDims ⟨2, ![n, K]⟩ ⟨2, ![K, M]⟩ ⟨2, ![n, M]⟩) (hD : D = DotDims.plain n K M)
    (htr : (⟨2, ![M, K]⟩ : Shape).Transposes [1, 0] ⟨2, ![K, M]⟩)
    (h1 : (⟨1, ![M]⟩ : Shape).BroadcastsInDim ⟨2, ![1, M]⟩ ![1])
    (h2 : (⟨2, ![1, M]⟩ : Shape).BroadcastsInDim ⟨2, ![n, M]⟩ ![0, 1])
    (x : FVec Ideal ⟨2, ![n, K]⟩ .f32) (W : FVec Ideal ⟨2, ![M, K]⟩ .f32) (b : FVec Ideal ⟨1, ![M]⟩ .f32) :
    addf (Host.dotGeneral D none x (transpose ⟨2, ![K, M]⟩ [1, 0] W htr))
        (broadcastInDim ⟨2, ![n, M]⟩ ![0, 1] h2 (broadcastInDim ⟨2, ![1, M]⟩ ![1] h1 b))
      = project x W (row b) := by
  funext j
  obtain ⟨p, q, rfl⟩ : ∃ (p : Fin n) (q : Fin M), j = ix2 p q := ⟨j 0, j 1, eq_ix2 j⟩
  rw [project_apply]
  show FloatOps.dotGeneral D none _ x (transpose ⟨2, ![K, M]⟩ [1, 0] W htr) (ix2 p q)
      + broadcastInDim ⟨2, ![n, M]⟩ ![0, 1] h2 (broadcastInDim ⟨2, ![1, M]⟩ ![1] h1 b) (ix2 p q) = _
  rw [Cert.Lib.DotColsHost.dotGeneral_cols_apply D hD none _ x _ p q, bias_rows_apply b h1 h2 p q]
  refine congrArg (· + row b (ix2 (0 : Fin 1) q)) (Finset.sum_congr rfl fun k _ => ?_)
  rw [transpose_ix2_apply]

/-- The host's negated distances: the words' squared lengths as a column repeated over the tags, less twice the product
    contracting the last axes, plus the tags' squared lengths as a row repeated over the words, negated. -/
theorem negated_distances (D : DotDims ⟨2, ![n, M]⟩ ⟨2, ![T, M]⟩ ⟨2, ![n, T]⟩) (hD : D = DotDims.transposedRhs n M T)
    (hredW : (⟨2, ![n, M]⟩ : Shape).ReducesTo [1] ⟨1, ![n]⟩) (hrW : (⟨2, ![n, M]⟩ : Shape).Reduces [1] ⟨1, ![n]⟩)
    (hredT : (⟨2, ![T, M]⟩ : Shape).ReducesTo [1] ⟨1, ![T]⟩) (hrT : (⟨2, ![T, M]⟩ : Shape).Reduces [1] ⟨1, ![T]⟩)
    (hu : 0 < (⟨0, ![]⟩ : Shape).numel)
    (c1 : (⟨1, ![n]⟩ : Shape).BroadcastsInDim ⟨2, ![n, 1]⟩ ![0])
    (c2 : (⟨2, ![n, 1]⟩ : Shape).BroadcastsInDim ⟨2, ![n, T]⟩ ![0, 1])
    (b0 : (⟨0, ![]⟩ : Shape).BroadcastsInDim ⟨2, ![n, T]⟩ ![])
    (r1 : (⟨1, ![T]⟩ : Shape).BroadcastsInDim ⟨2, ![1, T]⟩ ![1])
    (r2 : (⟨2, ![1, T]⟩ : Shape).BroadcastsInDim ⟨2, ![n, T]⟩ ![0, 1])
    (Wm : FVec Ideal ⟨2, ![n, M]⟩ .f32) (Tm : FVec Ideal ⟨2, ![T, M]⟩ .f32) :
    Host.negf (addf
        (subf
          (broadcastInDim ⟨2, ![n, T]⟩ ![0, 1] c2 (broadcastInDim ⟨2, ![n, 1]⟩ ![0] c1
            (Host.reduceAdd (mulf Wm Wm) (constant (F := Ideal) ⟨0, ![]⟩ .f32 0x00000000#32) hredW hu)))
          (mulf (broadcastInDim ⟨2, ![n, T]⟩ ![] b0 (constant (F := Ideal) ⟨0, ![]⟩ .f32 0x40000000#32))
            (Host.dotGeneral D none Wm Tm)))
        (broadcastInDim ⟨2, ![n, T]⟩ ![0, 1] r2 (broadcastInDim ⟨2, ![1, T]⟩ ![1] r1
          (Host.reduceAdd (mulf Tm Tm) (constant (F := Ideal) ⟨0, ![]⟩ .f32 0x00000000#32) hredT hu))))
      = negDist (Ideal.ofBits .f32 0x40000000#32) Wm Tm := by
  funext j
  obtain ⟨p, q, rfl⟩ : ∃ (p : Fin n) (q : Fin T), j = ix2 p q := ⟨j 0, j 1, eq_ix2 j⟩
  rw [negDist_apply]
  show -((broadcastInDim ⟨2, ![n, T]⟩ ![0, 1] c2 (broadcastInDim ⟨2, ![n, 1]⟩ ![0] c1
              (Host.reduceAdd (mulf Wm Wm) (constant (F := Ideal) ⟨0, ![]⟩ .f32 0x00000000#32) hredW hu)) (ix2 p q)
            - broadcastInDim ⟨2, ![n, T]⟩ ![] b0 (constant (F := Ideal) ⟨0, ![]⟩ .f32 0x40000000#32) (ix2 p q)
              * FloatOps.dotGeneral D none _ Wm Tm (ix2 p q))
          + broadcastInDim ⟨2, ![n, T]⟩ ![0, 1] r2 (broadcastInDim ⟨2, ![1, T]⟩ ![1] r1
              (Host.reduceAdd (mulf Tm Tm) (constant (F := Ideal) ⟨0, ![]⟩ .f32 0x00000000#32) hredT hu)) (ix2 p q)) = _
  rw [column_bcast_apply _ c1 c2 p q, host_rowSum _ hredW hrW hu p,
    (broadcastInDim_apply _ b0 _ (ix2 p q) ix0 fun ax => ax.elim0),
    Cert.Lib.DotRows.dotGeneral_rows_apply D hD none _ Wm Tm p q, bias_rows_apply _ r1 r2 p q]
  show -(((∑ k : Fin M, mulf Wm Wm (ix2 p k))
            - constant (F := Ideal) ⟨0, ![]⟩ .f32 0x40000000#32 ix0 * ∑ k : Fin M, Wm (ix2 p k) * Tm (ix2 q k))
          + Host.reduceAdd (mulf Tm Tm) (constant (F := Ideal) ⟨0, ![]⟩ .f32 0x00000000#32) hredT hu (ix1 q)) = _
  rw [host_rowSum _ hredT hrT hu q]
  rfl

end Proto.OnHost

/-! ## The reference's three stretches -/

namespace Cert.ReferenceIdeal.Rows

open Idealize.ShloMosaic Idealize.ShloMosaic.ValueIdx Gcn.Layers Gcn.LayerOps Gcn.SoftmaxOps Proto
open Cert.ReferenceIdeal Cert.ReferenceIdeal.Gen Cert.ReferenceIdeal.Line

/-- The factor of the cross term, as both programs write it. -/
abbrev two : EReal := Ideal.ofBits .f32 0x40000000#32

theorem tags_metric (x0 x2 : FVec Ideal S512x768 .f32) (x3 : FVec Ideal S512 .f32) :
    tagsMetric (F := Ideal) x0 x2 x3 = project x0 x2 (row x3) := by
  unfold tagsMetric
  exact Proto.OnHost.projection _ rfl _ _ _ x0 x2 x3

theorem words_metric (x1 : FVec Ideal S131072x768 .f32) (x4 : FVec Ideal S512x768 .f32) (x5 : FVec Ideal S512 .f32) :
    wordsMetric (F := Ideal) x1 x4 x5 = project x1 x4 (row x5) := by
  unfold wordsMetric
  exact Proto.OnHost.projection _ rfl _ _ _ x1 x4 x5

theorem neg_distances (wm : FVec Ideal S131072x512 .f32) (tm : FVec Ideal S512x512 .f32) :
    negDistances (F := Ideal) wm tm = negDist two wm tm := by
  unfold negDistances
  exact Proto.OnHost.negated_distances _ rfl _ (by decide) _ (by decide) _ _ _ _ _ _ wm tm

theorem row_log_softmax (z : FVec Ideal S131072x512 .f32) : rowLogSoftmax (F := Ideal) z = logSoftmaxRows z := by
  unfold rowLogSoftmax rowMaxSpread
  exact host_logSoftmaxRows _ (by decide) _ _ _ _ z

/-- The reference's first result: the logarithm of each word's softmax over the tags. -/
theorem log_scores (x0 : FVec Ideal S512x768 .f32) (x1 : FVec Ideal S131072x768 .f32) (x2 : FVec Ideal S512x768 .f32)
    (x3 : FVec Ideal S512 .f32) (x4 : FVec Ideal S512x768 .f32) (x5 : FVec Ideal S512 .f32) :
    rowLogSoftmax (F := Ideal) (negDistances (wordsMetric x1 x4 x5) (tagsMetric x0 x2 x3))
      = logScores two x1 x4 (row x5) x0 x2 (row x3) := by
  rw [row_log_softmax, neg_distances, words_metric, tags_metric]
  rfl

/-- The reference's second result: its exponential. -/
theorem scores_eq (x0 : FVec Ideal S512x768 .f32) (x1 : FVec Ideal S131072x768 .f32) (x2 : FVec Ideal S512x768 .f32)
    (x3 : FVec Ideal S512 .f32) (x4 : FVec Ideal S512x768 .f32) (x5 : FVec Ideal S512 .f32) :
    Host.exp (F := Ideal) (s := S131072x512) (φ := .f32)
        (rowLogSoftmax (F := Ideal) (negDistances (wordsMetric x1 x4 x5) (tagsMetric x0 x2 x3)))
      = scores two x1 x4 (row x5) x0 x2 (row x3) := by
  rw [log_scores]
  rfl

end Cert.ReferenceIdeal.Rows

end
-- ==== Proof.lean ====
/-
  Nearest-prototype scores: a two-region kernel against its jnp reference, over the extended reals.

  Both programs project 512 tag vectors and 131072 word vectors of width 768 into a 512-dimensional metric space
  (`x · Wᵀ + b`), form for every (word, tag) pair the squared distance in its expanded form
  `‖w‖² − 2·(w · t) + ‖t‖²`, negate it, and return the logarithm of each word's softmax over the tags together with
  the softmax itself. The kernel does it in two regions: one grid point that stores the tag projections and the row of
  their squared lengths, then 128 grid points of 1024 word rows each; it rounds its matrix operands to bf16 (the
  identity on the extended reals), contracts the last axis of both operands where the reference transposes a weight
  first, and writes the negation as `0 − ·`. The reference is one line of host operations with the log-softmax
  outlined. Operation for operation the two compute the same composition of sums, products, differences, a row
  supremum, exponentials and a logarithm; only the order inside sums and the layout differ, so the equality needs no
  finiteness and the precondition is never opened.

  The modules: `ProtoSpec` states the result entry by entry; `KernelRows` shows what the two bodies store is the
  specification's function of their loaded blocks; `BlockRun` reads the result arrays off the run as the bodies' stored
  values, block by block; `KernelValue` joins the two; `RefLine` reads the reference's line back in three stretches and
  `RefRows` shows each stretch is the specification's. The kernel read over the extended reals is the kernel's own text, no operation replaced, so the
  idealization claim has nothing to state.
-/
import proofs.«111506_j51754355917524_1_alg».proof.Defs
import proofs.«111506_j51754355917524_1_alg».proof.Proof.Gen.Kernel
import proofs.«111506_j51754355917524_1_alg».proof.Proof.Gen.Kernel.Skeleton
import proofs.«111506_j51754355917524_1_alg».proof.Proof.Gen.Kernel.Launch
import proofs.«111506_j51754355917524_1_alg».proof.Proof.Gen.Kernel.Points
import proofs.«111506_j51754355917524_1_alg».proof.Proof.Gen.Kernel.Frame
import proofs.«111506_j51754355917524_1_alg».proof.Proof.Gen.KernelIdeal
import proofs.«111506_j51754355917524_1_alg».proof.Proof.Gen.KernelIdeal.Skeleton
import proofs.«111506_j51754355917524_1_alg».proof.Proof.Gen.KernelIdeal.Launch
import proofs.«111506_j51754355917524_1_alg».proof.Proof.Gen.KernelIdeal.Points
import proofs.«111506_j51754355917524_1_alg».proof.Proof.Gen.KernelIdeal.Frame
import proofs.«111506_j51754355917524_1_alg».proof.Proof.Gen.ReferenceIdeal
import proofs.«111506_j51754355917524_1_alg».proof.Proof.Gen.Pre_finite_inputs
import proofs.«111506_j51754355917524_1_alg».proof.Proof.KernelValue
import proofs.«111506_j51754355917524_1_alg».proof.Proof.RefRows
import Idealize.ShloMosaic.Adequacy
import Idealize.ShloMosaic.Init

noncomputable section

namespace Cert.Proof

open Idealize.ShloMosaic Idealize.ShloMosaic.TcCoe Idealize.SL.Sem Proto Gcn.LayerOps

/-- The word-level kernel runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference's line runs and leaves its arguments as launched: its run, the results dropped. -/
theorem frame_reference : Cert.frame_ReferenceIdeal := fun m ρ _ =>
  (θ_run Cert.ReferenceIdeal.defs _ _).mono (fun _ h c => (h c).2.2) (Cert.ReferenceIdeal.Line.run (F := Ideal) m ρ)

/-- Over the extended reals, from memories that agree on the six arguments, the kernel's two result arrays and the
    reference's are the same arrays: both are `Proto.logScores` and `Proto.scores` of the arguments, each bias read as a row. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ⟨(h c).1.trans ?_, (h c).2.1.trans ?_, (h c).2.2⟩)
    (Cert.ReferenceIdeal.Line.run (F := Ideal) m' ρ')
  · obtain ⟨e0, e1, e2, e3, e4, e5⟩ := hagree c
    rw [Cert.ReferenceIdeal.Rows.log_scores, e0, e1, e2, e3, e4, e5]
  · obtain ⟨e0, e1, e2, e3, e4, e5⟩ := hagree c
    rw [Cert.ReferenceIdeal.Rows.scores_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
